-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_
  reducesTo_S8x4096x4096_S8x4096_d1 : S8x4096x4096.ReducesTo [1] S8x4096
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v14 : FVec F S8x4096 .f32) (main_v15 : FVec F S8x4096 .f32) : IVec S_ 1 :=
  let main_v16 : IVec S8x4096 1 := cmpf .une main_v14 main_v15
  let main_c_6 : IVec S_ 1 := constantI S_ 1 1#1
  let main_v17 : IVec S_ 1 := (fun x v => Host.reduce IntOp.andi x v reducesTo_S8x4096_S_d0_1 h_S_) main_v16 main_c_6
  let main_v18 : IVec S_ 1 := andi main_v13 main_v17
  main_v18

def fn {F : FTy → Type} [FloatOps F] (main_arg0 : FVec F S8x4096x3 .f32) (main_arg1 : FVec F S8x4096x3 .f32) (main_arg2 : FVec F S8x4096x4096 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096x4096 .f32 := Host.absf main_arg2
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  let main_cst_4 : FVec F S_ .f32 := constant S_ .f32 0x00000000#32
  let main_v14 : FVec F S8x4096 .f32 := (fun x v => Host.reduceAdd x v reducesTo_S8x4096x4096_S8x4096_d1 h_S_) main_arg2 main_cst_4
  let main_cst_5 : FVec F S_ .f32 := constant S_ .f32 0x00000000#32
  let main_v15 : FVec F S8x4096 .f32 := broadcastInDim S8x4096 ![] bcast_S_S8x4096 main_cst_5
  fn_part1 (F := F) main_v13 main_v14 main_v15
-- ==== Kernel.lean ====
abbrev S8x4096x3 : Shape := ⟨3, ![8, 4096, 3]⟩
abbrev S8x4096x4096 : Shape := ⟨3, ![8, 4096, 4096]⟩
abbrev S8x4096x6 : Shape := ⟨3, ![8, 4096, 6]⟩
abbrev S8x1x4096 : Shape := ⟨3, ![8, 1, 4096]⟩
abbrev S8x4096 : Shape := ⟨2, ![8, 4096]⟩
abbrev S_ : Shape := ⟨0, ![]⟩
abbrev S8x4096x1 : Shape := ⟨3, ![8, 4096, 1]⟩
abbrev S1x2048x1024 : Shape := ⟨3, ![1, 2048, 1024]⟩
abbrev S1x1024x6 : Shape := ⟨3, ![1, 1024, 6]⟩
abbrev S1x2048x6 : Shape := ⟨3, ![1, 2048, 6]⟩
abbrev S1x1x4096 : Shape := ⟨3, ![1, 1, 4096]⟩
abbrev S2048x6 : Shape := ⟨2, ![2048, 6]⟩
abbrev S1x4096 : Shape := ⟨2, ![1, 4096]⟩
abbrev S2048x1024 : Shape := ⟨2, ![2048, 1024]⟩
abbrev S1024x6 : Shape := ⟨2, ![1024, 6]⟩
abbrev S1024 : Shape := ⟨1, ![1024]⟩
abbrev S1x1024 : Shape := ⟨2, ![1, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S8x4096x6, .f32⟩
  | .hbm, ⟨4, _⟩ => ⟨S8x4096x6, .f32⟩
  | .hbm, ⟨5, _⟩ => ⟨S8x1x4096, .f32⟩
  | .hbm, ⟨6, _⟩ => ⟨S8x4096, .f32⟩
  | .hbm, ⟨7, _⟩ => ⟨S8x4096x3, .f32⟩
  | .hbm, ⟨8, _⟩ => ⟨S8x4096x3, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096x1, .f32⟩
  | .hbm, ⟨13, _⟩ => ⟨S8x4096x3, .f32⟩
  | .hbm, ⟨14, _⟩ => ⟨S8x4096x3, .f32⟩
  | .hbm, ⟨15, _⟩ => ⟨S8x4096x3, .f32⟩
  | .hbm, ⟨16, _⟩ => ⟨S8x4096x3, .f32⟩
  | .hbm, ⟨17, _⟩ => ⟨S8x4096x3, .f32⟩
  | .hbm, ⟨18, _⟩ => ⟨S8x4096x3, .f32⟩
  | .hbm, ⟨19, _⟩ => ⟨S8x4096x3, .f32⟩
  | .hbm, ⟨20, _⟩ => ⟨S8x4096x3, .f32⟩
  | .hbm, ⟨21, _⟩ => ⟨S_, .f32⟩
  | .hbm, ⟨22, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x6, .f32⟩
  | .local _ .vmem, ⟨3, _⟩ => ⟨S1x1024x6, .f32⟩
  | .local _ .vmem, ⟨4, _⟩ => ⟨S1x2048x6, .f32⟩
  | .local _ .vmem, ⟨5, _⟩ => ⟨S1x2048x6, .f32⟩
  | .local _ .vmem, ⟨6, _⟩ => ⟨S1x1x4096, .f32⟩
  | .local _ .vmem, ⟨7, _⟩ => ⟨S1x1x4096, .f32⟩
  | .local _ .vmem, ⟨8, _⟩ => ⟨S2048x6, .f32⟩
  | .local _ .vmem, ⟨9, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_call0_v1_1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_cst_0 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v14 : BitVec 32 := Scalar.muli arg2 c1024_i32
  v14
def k0_off1 (i : grid0.Coords) : Fin 2 → Nat :=
  let c0_9 : Index := 0#32
  let arg2 : BitVec 32 := BitVec.ofNat 32 (i 2).val
  let c1024_i32 : BitVec 32 := 1024#32
  let v14 : BitVec 32 := Scalar.muli arg2 c1024_i32
  let v15 : BitVec 32 := v14
  let v16 : Index := Scalar.indexCast v15
  ![0, v16.toNat]
def k0_cond3 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_16 : BitVec 32 := 0#32
  let v31 : BitVec 1 := Scalar.cmpi .ne v30 c0_i32_16
  v31

def k0_cond4 (i : grid0.Coords) : BitVec 1 :=
  let arg1 : BitVec 32 := BitVec.ofNat 32 (i 1).val
  let c1_i32 : BitVec 32 := 1#32
  let v32 : BitVec 1 := Scalar.cmpi .eq arg1 c1_i32
  let arg2 : BitVec 32 := BitVec.ofNat 32 (i 2).val
  let c3_i32_17 : BitVec 32 := 3#32
  let v33 : BitVec 1 := Scalar.cmpi .eq arg2 c3_i32_17
  let v34 : BitVec 1 := Scalar.andi v32 v33
  let v35 : BitVec 32 := Scalar.extui v34
  let c0_i32_18 : BitVec 32 := 0#32
  let v36 : BitVec 1 := Scalar.cmpi .ne v35 c0_i32_18
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  concatenates_S8x4096x3_S8x4096x3_S8x4096x6_d2 : Shape.Concatenates [S8x4096x3, S8x4096x3] S8x4096x6 2
  shapeCasts_S8x1x4096_S8x4096 : S8x1x4096.ShapeCasts S8x4096
  slices_S8x4096x6_S8x4096x3_0_0_0 : S8x4096x6.Slices ![0, 0, 0] S8x4096x3
  slices_S8x4096x6_S8x4096x3_0_0_3 : S8x4096x6.Slices ![0, 0, 3] S8x4096x3
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x3_0_1_2 : S8x4096x1.BroadcastsInDim S8x4096x3 (![0, 1, 2] : Fin 3 → Fin S8x4096x3.rank)
  reducesTo_S8x4096x3_S_d0_1_2 : S8x4096x3.ReducesTo [0, 1, 2] S_
  h_S_ : 0 < S_.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S2048x6_S2048x6_0_0 : ∀ a, (![0, 0] : Fin 2 → Nat) a + S2048x6.size a ≤ S2048x6.size a
  h_S2048x6 : 0 < S2048x6.numel
  shapeCasts_S2048x6_S2048x6 : S2048x6.ShapeCasts S2048x6
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x6_S1x1024x6_0_0_0 : ∀ a, (![0, 0, 0] : Fin 3 → Nat) a + S1x1024x6.size a ≤ S1x1024x6.size a
  h_S1x1024x6 : 0 < S1x1024x6.numel
  shapeCasts_S1x1024x6_S1024x6 : S1x1024x6.ShapeCasts S1024x6
  reduces_S2048x1024_S1024 : S2048x1024.Reduces [0] S1024
  shapeCasts_S1024_S1x1024 : S1024.ShapeCasts S1x1024
  h_S1x1024 : 0 < S1x1024.numel
  shapeCasts_S1x1024_S1x1024 : S1x1024.ShapeCasts S1x1024
  inb_S1x2048x6_S1x2048x6_0_0_0 : ∀ a, (![0, 0, 0] : Fin 3 → Nat) a + S1x2048x6.size a ≤ S1x2048x6.size a
  h_S1x2048x6 : 0 < S1x2048x6.numel
  shapeCasts_S1x2048x6_S2048x6 : S1x2048x6.ShapeCasts S2048x6
  shapeCasts_S2048x6_S1x2048x6 : S2048x6.ShapeCasts S1x2048x6
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  dot_S2048x1024_S1024x6_S2048x6_1_0_0_1_n_n_wf : DotDims.WF S2048x1024 S1024x6 S2048x6 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x4096.size a
  hwx0_0 : ∀ i : grid0.Coords, EltTy.bits .f32 = 32 ∨ (Rect.block (s := S8x4096x4096) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x6.size a ≤ S8x4096x6.size a
  hwx0_1 : ∀ i : grid0.Coords, EltTy.bits .f32 = 32 ∨ (Rect.block (s := S8x4096x6) S1x1024x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x6.size a ≤ S8x4096x6.size a
  hwx0_2 : ∀ i : grid0.Coords, EltTy.bits .f32 = 32 ∨ (Rect.block (s := S8x4096x6) S1x2048x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S2048x1024_S1024x6_S2048x6_1_0_0_1_n_n : DotDims S2048x1024 S1024x6 S2048x6 where
  lhsContracting := [1]
  rhsContracting := [0]
  lhsNonContracting := [0]
  rhsNonContracting := [1]
  lhsBatch := []
  rhsBatch := []
  wf := dot_S2048x1024_S1024x6_S2048x6_1_0_0_1_n_n_wf

abbrev win0_0 : Pipeline.Window sig grid0 :=
  Pipeline.Window.ofSpec (Memref.whole main_arg2) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1024x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S1x2048x6.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x4096, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S8x4096x1, .f32⟩
  | .hbm, ⟨7, _⟩ => ⟨S8x4096x3, .f32⟩
  | .hbm, ⟨8, _⟩ => ⟨S8x4096x3, .f32⟩
  | .hbm, ⟨9, _⟩ => ⟨S8x4096x3, .f32⟩
  | .hbm, ⟨10, _⟩ => ⟨S_, .f32⟩
  | .hbm, ⟨11, _⟩ => ⟨S8x4096, .f32⟩
  | .hbm, ⟨12, _⟩ => ⟨S8x4096x3, .f32⟩
  | .hbm, ⟨13, _⟩ => ⟨S8x4096x1, .f32⟩
  | .hbm, ⟨14, _⟩ => ⟨S8x4096x3, .f32⟩
  | .hbm, ⟨15, _⟩ => ⟨S8x4096x3, .f32⟩
  | .hbm, ⟨16, _⟩ => ⟨S8x4096x3, .f32⟩
  | .hbm, ⟨17, _⟩ => ⟨S8x4096x3, .f32⟩
  | .hbm, ⟨18, _⟩ => ⟨S8x4096x3, .f32⟩
  | .hbm, ⟨19, _⟩ => ⟨S_, .f32⟩
  | .hbm, ⟨20, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8x4096x4096_S8x4096_d1 : S8x4096x4096.ReducesTo [1] S8x4096
  h_S_ : 0 < S_.numel
  bcast_S8x4096_S8x4096x1_0_1 : S8x4096.BroadcastsInDim S8x4096x1 (![0, 1] : Fin 2 → Fin S8x4096x1.rank)
  bcast_S8x4096x1_S8x4096x3_0_1_2 : S8x4096x1.BroadcastsInDim S8x4096x3 (![0, 1, 2] : Fin 3 → Fin S8x4096x3.rank)
  reducesTo_S8x4096x3_S_d0_1_2 : S8x4096x3.ReducesTo [0, 1, 2] S_
  dot_S8x4096x4096_S8x4096x3_S8x4096x3_2_1_1_2_0_0_wf : DotDims.WF S8x4096x4096 S8x4096x3 S8x4096x3 [2] [1] [1] [2] [0] [0]

variable [Facts₀]

def dot_S8x4096x4096_S8x4096x3_S8x4096x3_2_1_1_2_0_0 : DotDims S8x4096x4096 S8x4096x3 S8x4096x3 where
  lhsContracting := [2]
  rhsContracting := [1]
  lhsNonContracting := [1]
  rhsNonContracting := [2]
  lhsBatch := [0]
  rhsBatch := [0]
  wf := dot_S8x4096x4096_S8x4096x3_S8x4096x3_2_1_1_2_0_0_wf

class Facts : Prop extends Facts₀ where

variable [Facts]
-- ==== Proof.LibOverlay.lean ====
/-
  Reading back what stores leave in a buffer, as a function of what it held before.

  A store through a rectangle `r` replaces the buffer's values on `r` by the payload and keeps every other value:
  read back, the contents are `r.overlay` of the earlier contents with the payload (`read_writes_cons`, and
  `read_writes_one` for a single store over known contents). A store through the whole-shape rectangle at zero
  offsets leaves exactly its payload, whatever was there (`read_writes_cons_whole`), and an overlay through
  that rectangle is the payload (`overlay_unit_zero`). Generic in the view, the shape and the element type.
-/
import Idealize.ShloMosaic.Lib.Writes
import Idealize.ShloMosaic.Lib.Pipeline.Value

noncomputable section

namespace Cert.LibOverlay

open Idealize.ShloMosaic

variable {sig : RefSig} {κ : Kind} {sp : Space} {s : Shape} {e : EltTy} {Val : EltTy → Type}

/-- The rank-4 zero offsets, however they are spelt. -/
theorem zeros4 : (![0, 0, 0, 0] : Fin 4 → ℕ) = fun _ => 0 := by funext a; fin_cases a <;> rfl

/-- The last store's rectangle holds its payload; off it the earlier stores' result is kept. -/
theorem read_writes_cons (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.writes_cons, View.read_slice_write_of_not_mem r _ _ _ (by rw [Rect.map_emb_univ]; exact hy),
      Rect.overlay_of_not_mem _ _ _ hy]

/-- One store over known contents. -/
theorem read_writes_one (v : View sig κ sp s e) (f : v.ty.Contents Val) (r : Rect s) (w : r.shape.Idx → Val e) :
    v.read Val (v.writes Val f [⟨r, w⟩]) = r.overlay (v.read Val f) w :=
  read_writes_cons v f r w []

/-- An overlay through the whole-shape rectangle is the payload. -/
theorem overlay_unit_zero {off : Fin s.rank → Nat} (h : off = fun _ => 0) (inb : ∀ a, off a + s.size a ≤ s.size a)
    (X : s.Idx → Val e) (w : s.Idx → Val e) : (Rect.unit off s.size inb).overlay X w = w := by
  subst h; funext y
  have e := Rect.overlay_emb (Rect.whole s) X w y
  rw [Rect.emb_whole_apply] at e
  exact e

/-- A store through the whole-shape rectangle, last, leaves its payload. -/
theorem read_writes_cons_whole (v : View sig κ sp s e) (f : v.ty.Contents Val) {off : Fin s.rank → Nat}
    (h : off = fun _ => 0) (inb : ∀ a, off a + s.size a ≤ s.size a) (w : s.Idx → Val e) (L : List (View.Piece Val s e)) :
    v.read Val (v.writes Val f ((⟨Rect.unit off s.size inb, w⟩ : View.Piece Val s e) :: L)) = w := by
  rw [read_writes_cons, overlay_unit_zero h inb]

end Cert.LibOverlay

end
-- ==== Proof.KBody.lean ====
/-
  What one run of the kernel body leaves in its two accumulators and its two outputs, case by case.

  The body keeps two accumulators across the grid's points: the neighbour accumulator (2048 rows by 6 coordinate
  columns, restarted at the first column tile of every row tile) and the degree accumulator (one row of 4096 partial
  column sums, restarted at the first point of every batch). Whatever the case, the neighbour accumulator ends at
  its step payload over what it held (zero right after a restart), and the degree accumulator ends at what it held
  (zero right after a restart) with the current tile's 1024 columns replaced by the old values plus the tile's
  column sums. The neighbour output is written at a row tile's last column tile as a copy of the accumulator, and
  the degree output at a batch's last point likewise.
-/
import proofs.«182072_j35141422416050_2_alg».proof.Proof.Gen.KernelIdeal.Frame
import proofs.«182072_j35141422416050_2_alg».proof.Proof.LibOverlay
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.LibOverlay

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 columns of the degree accumulator that belong to the current column tile. -/
abbrev colRect (i : grid0.Coords) : Rect S1x4096 := Rect.unit (s := S1x4096) (k0_off1 i) S1x1024.size (k0_off1_inb i)

/-- The degree accumulator after a point: on the tile's columns the old partial sums plus the tile's column sums,
    elsewhere unchanged. -/
abbrev degStep (i : grid0.Coords) (x0 : Vec F S1x2048x1024 .f32) (acc : Vec F S1x4096 .f32) : Vec F S1x4096 .f32 :=
  (colRect i).overlay acc (k0_pay6 x0 (View.ld acc (colRect i)))

/-- A later column tile of a row tile: the product is added into what the accumulator held. -/
theorem nb_B (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 : Vec F S1x2048x1024 .f32) (x1 : Vec F S1x1024x6 .f32) (xs0 : Vec F S2048x6 .f32) (xs1 : Vec F S1x4096 .f32) :
    sout0_B_0 c i arg3 harg3 arg4 harg4 arg5 harg5 arg6 harg6 arg7 harg7 arg8 harg8 hc0 hc1 hc2 hc3 x0 x1 xs0 xs1 = k0_pay7 x0 x1 xs0 := by
  unfold sout0_B_0 kernelRun0_B
  dsimp only
  rw [read_writes_cons_whole _ _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem dg_B (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i) (x0 : Vec F S1x2048x1024 .f32) (x1 : Vec F S1x1024x6 .f32) (xs0 : Vec F S2048x6 .f32) (xs1 : Vec F S1x4096 .f32) :
    sout0_B_1 c i arg3 harg3 arg4 harg4 arg5 harg5 arg6 harg6 arg7 harg7 arg8 harg8 hc0 hc1 hc2 hc3 x0 x1 xs0 xs1 = degStep i x0 xs1 := by
  unfold sout0_B_1 kernelRun0_B
  dsimp only
  rw [read_writes_one]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- The first point of a batch: both accumulators restart from zero. -/
theorem nb_A (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 : Vec F S1x2048x1024 .f32) (x1 : Vec F S1x1024x6 .f32) :
    sout0_A_0 c i arg3 harg3 arg4 harg4 arg5 harg5 arg6 harg6 arg7 harg7 arg8 harg8 hc0 hc1 hc2 hc3 x0 x1 = k0_pay7 x0 x1 (k0_pay4 (F := F)) := by
  unfold sout0_A_0 kernelRun0_A
  dsimp only
  rw [read_writes_cons_whole _ _ hz2]
  sl_unfold_words
  rw [View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem dg_A (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i) (x0 : Vec F S1x2048x1024 .f32) (x1 : Vec F S1x1024x6 .f32) :
    sout0_A_1 c i arg3 harg3 arg4 harg4 arg5 harg5 arg6 harg6 arg7 harg7 arg8 harg8 hc0 hc1 hc2 hc3 x0 x1 = degStep i x0 (k0_pay3 (F := F)) := by
  unfold sout0_A_1 kernelRun0_A
  dsimp only
  sl_unfold_words
  rw [read_writes_cons]
  simp only [read_writes_cons_whole (s := S1x4096) _ _ hz2, View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

theorem nb_C (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 : Vec F S1x2048x1024 .f32) (x1 : Vec F S1x1024x6 .f32) (xs0 : Vec F S2048x6 .f32) (xs1 : Vec F S1x4096 .f32) :
    sout0_C_0 c i arg3 harg3 arg4 harg4 arg5 harg5 arg6 harg6 arg7 harg7 arg8 harg8 hc0 hc1 hc2 hc3 x0 x1 xs0 xs1 = k0_pay7 x0 x1 xs0 := by
  unfold sout0_C_0 kernelRun0_C
  dsimp only
  sl_unfold_words
  rw [read_writes_cons_whole _ _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem dg_C (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 : Vec F S1x2048x1024 .f32) (x1 : Vec F S1x1024x6 .f32) (xs0 : Vec F S2048x6 .f32) (xs1 : Vec F S1x4096 .f32) :
    sout0_C_1 c i arg3 harg3 arg4 harg4 arg5 harg5 arg6 harg6 arg7 harg7 arg8 harg8 hc0 hc1 hc2 hc3 x0 x1 xs0 xs1 = degStep i x0 xs1 := by
  unfold sout0_C_1 kernelRun0_C
  dsimp only
  rw [read_writes_one]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- The last column tile of a row tile: the neighbour output is the accumulator just updated. -/
theorem out_C (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i) (x0 : Vec F S1x2048x1024 .f32) (x1 : Vec F S1x1024x6 .f32) (xs0 : Vec F S2048x6 .f32) (xs1 : Vec F S1x4096 .f32) :
    out0_C_2 c i arg3 harg3 arg4 harg4 arg5 harg5 arg6 harg6 arg7 harg7 arg8 harg8 hc0 hc1 hc2 hc3 x0 x1 xs0 xs1 = k0_pay1 (k0_pay7 x0 x1 xs0) := by
  unfold out0_C_2 kernelRun0_C
  dsimp only
  rw [read_writes_cons_whole _ _ hz3]
  sl_unfold_words
  rw [View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- The first column tile of a batch's second row tile: the neighbour accumulator restarts, the degree one goes on. -/
theorem nb_D (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : cond0_1 i) (hc2 : ¬cond0_2 i) (hc3 : ¬cond0_3 i) (x0 : Vec F S1x2048x1024 .f32) (x1 : Vec F S1x1024x6 .f32) (xs1 : Vec F S1x4096 .f32) :
    sout0_D_0 c i arg3 harg3 arg4 harg4 arg5 harg5 arg6 harg6 arg7 harg7 arg8 harg8 hc0 hc1 hc2 hc3 x0 x1 xs1 = k0_pay7 x0 x1 (k0_pay4 (F := F)) := by
  unfold sout0_D_0 kernelRun0_D
  dsimp only
  rw [read_writes_cons_whole _ _ hz2]
  sl_unfold_words
  rw [View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem dg_D (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : cond0_1 i) (hc2 : ¬cond0_2 i) (hc3 : ¬cond0_3 i) (x0 : Vec F S1x2048x1024 .f32) (x1 : Vec F S1x1024x6 .f32) (xs1 : Vec F S1x4096 .f32) :
    sout0_D_1 c i arg3 harg3 arg4 harg4 arg5 harg5 arg6 harg6 arg7 harg7 arg8 harg8 hc0 hc1 hc2 hc3 x0 x1 xs1 = degStep i x0 xs1 := by
  unfold sout0_D_1 kernelRun0_D
  dsimp only
  rw [read_writes_one]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

/-- The last point of a batch: both outputs are written. -/
theorem nb_E (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 : Vec F S1x2048x1024 .f32) (x1 : Vec F S1x1024x6 .f32) (xs0 : Vec F S2048x6 .f32) (xs1 : Vec F S1x4096 .f32) :
    sout0_E_0 c i arg3 harg3 arg4 harg4 arg5 harg5 arg6 harg6 arg7 harg7 arg8 harg8 hc0 hc1 hc2 hc3 x0 x1 xs0 xs1 = k0_pay7 x0 x1 xs0 := by
  unfold sout0_E_0 kernelRun0_E
  dsimp only
  sl_unfold_words
  rw [read_writes_cons_whole _ _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem dg_E (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 : Vec F S1x2048x1024 .f32) (x1 : Vec F S1x1024x6 .f32) (xs0 : Vec F S2048x6 .f32) (xs1 : Vec F S1x4096 .f32) :
    sout0_E_1 c i arg3 harg3 arg4 harg4 arg5 harg5 arg6 harg6 arg7 harg7 arg8 harg8 hc0 hc1 hc2 hc3 x0 x1 xs0 xs1 = degStep i x0 xs1 := by
  unfold sout0_E_1 kernelRun0_E
  dsimp only
  sl_unfold_words
  rw [read_writes_one]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

theorem out_E2 (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 : Vec F S1x2048x1024 .f32) (x1 : Vec F S1x1024x6 .f32) (xs0 : Vec F S2048x6 .f32) (xs1 : Vec F S1x4096 .f32) :
    out0_E_2 c i arg3 harg3 arg4 harg4 arg5 harg5 arg6 harg6 arg7 harg7 arg8 harg8 hc0 hc1 hc2 hc3 x0 x1 xs0 xs1 = k0_pay1 (k0_pay7 x0 x1 xs0) := by
  unfold out0_E_2 kernelRun0_E
  dsimp only
  rw [read_writes_cons_whole _ _ hz3]
  sl_unfold_words
  rw [View.readCov_unit_zero (S := S2048x6) _ hz2]
  simp only [View.readAt_eq_ld, harg3.read_unread, harg4.read_unread, harg7.read_unread, harg8.read_unread, View.ld_unit_zero (S := S1x2048x1024) hz3, View.ld_unit_zero (S := S1x1024x6) hz3, View.ld_unit_zero (S := S2048x6) hz2]

theorem out_E3 (c : Dev nD) (i : grid0.Coords) (arg3 : Memref sig .tc .vmem S1x2048x1024 .f32) (harg3 : arg3.IsWhole) (arg4 : Memref sig .tc .vmem S1x1024x6 .f32) (harg4 : arg4.IsWhole) (arg5 : Memref sig .tc .vmem S1x2048x6 .f32) (harg5 : arg5.IsWhole) (arg6 : Memref sig .tc .vmem S1x1x4096 .f32) (harg6 : arg6.IsWhole) (arg7 : Memref sig .tc .vmem S2048x6 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i) (x0 : Vec F S1x2048x1024 .f32) (x1 : Vec F S1x1024x6 .f32) (xs0 : Vec F S2048x6 .f32) (xs1 : Vec F S1x4096 .f32) :
    out0_E_3 c i arg3 harg3 arg4 harg4 arg5 harg5 arg6 harg6 arg7 harg7 arg8 harg8 hc0 hc1 hc2 hc3 x0 x1 xs0 xs1 = k0_pay2 (degStep i x0 xs1) := by
  unfold out0_E_3 kernelRun0_E
  dsimp only
  rw [read_writes_cons_whole _ _ hz3]
  sl_unfold_words
  rw [View.readAt_eq_ld, read_writes_one]
  simp only [View.ld_unit_zero (S := S1x4096) hz2, View.readAt_eq_ld, harg3.read_unread, harg4.read_unread, harg7.read_unread, harg8.read_unread, View.ld_unit_zero (S := S1x2048x1024) hz3, View.ld_unit_zero (S := S1x1024x6) hz3, View.ld_unit_zero (S := S2048x6) hz2]
  rfl

end Cert.KernelIdeal.Body

end
-- ==== Proof.KAcc.lean ====
/-
  The two accumulators across the grid, as folds.

  Point t of the grid is (batch, row tile, column tile) = (t / 8, t / 4 % 2, t % 4). The neighbour accumulator
  restarts at every point with t % 4 = 0 and is stepped at every other point; the degree accumulator restarts at
  every point with t % 8 = 0 and is stepped at every other point. So after point t each is the fold of its step
  over the run of points since its last restart. The neighbour output written at a point with t % 4 = 3 is the
  neighbour accumulator after that point, and the degree output written at a point with t % 8 = 7 is the degree
  accumulator after that point.
-/
import proofs.«182072_j35141422416050_2_alg».proof.Proof.KBody

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body

variable {F : FTy → Type} [FloatOps F]
variable (m : (ℓ : Loc nD τ sig) → Buf (Elt F) ℓ)

/-- The neighbour accumulator after point n. -/
def nbAt (c : Dev nD) (n : ℕ) (h : n < cfg0.N) : Vec F S2048x6 .f32 := (outsAt0 m c n h).2.2.1
/-- The degree accumulator after point n. -/
def dgAt (c : Dev nD) (n : ℕ) (h : n < cfg0.N) : Vec F S1x4096 .f32 := (outsAt0 m c n h).2.2.2

/-- The adjacency tile and the coordinate rows that point n reads. -/
def aTile (c : Dev nD) (n : ℕ) (h : n < cfg0.N) : Vec F S1x2048x1024 .f32 := iblk m c 0 ⟨n, h⟩
def xTile (c : Dev nD) (n : ℕ) (h : n < cfg0.N) : Vec F S1x1024x6 .f32 := iblk m c 1 ⟨n, h⟩

/-- The neighbour accumulator's value at a restart and its step, at point n. -/
def nbReset (c : Dev nD) (n : ℕ) (h : n < cfg0.N) : Vec F S2048x6 .f32 :=
  k0_pay7 (aTile m c n h) (xTile m c n h) (k0_pay4 (F := F))
def nbStep (c : Dev nD) (n : ℕ) (h : n < cfg0.N) (acc : Vec F S2048x6 .f32) : Vec F S2048x6 .f32 :=
  k0_pay7 (aTile m c n h) (xTile m c n h) acc
/-- The degree accumulator's value at a restart and its step, at point n. -/
def dgReset (c : Dev nD) (n : ℕ) (h : n < cfg0.N) : Vec F S1x4096 .f32 :=
  degStep (grid0.coords ⟨n, h⟩) (aTile m c n h) (k0_pay3 (F := F))
def dgStep (c : Dev nD) (n : ℕ) (h : n < cfg0.N) (acc : Vec F S1x4096 .f32) : Vec F S1x4096 .f32 :=
  degStep (grid0.coords ⟨n, h⟩) (aTile m c n h) acc

theorem nb_restart (c : Dev nD) (n : ℕ) (h : n < cfg0.N) (h1 : n % 4 = 0) : nbAt m c n h = nbReset m c n h := by
  have hN : cfg0.N = 64 := N_0
  have h2 : ¬n % 4 = 3 := by omega
  have h3 : ¬n % 8 = 7 := by omega
  unfold nbAt nbReset aTile xTile
  by_cases h0 : n % 8 = 0
  · rw [outsAt0_A m c ⟨n, h⟩ h0 h1 h2 h3]

    dsimp only
    exact nb_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) scM0_1 (Memref.isWhole_whole _) ((hcond0_0 (⟨n, h⟩ : Fin cfg0.N)).mpr h0) ((hcond0_1 (⟨n, h⟩ : Fin cfg0.N)).mpr h1) (fun hh => h2 ((hcond0_2 (⟨n, h⟩ : Fin cfg0.N)).mp hh)) (fun hh => h3 ((hcond0_3 (⟨n, h⟩ : Fin cfg0.N)).mp hh)) (iblk m c 0 (⟨n, h⟩ : Fin cfg0.N)) (iblk m c 1 (⟨n, h⟩ : Fin cfg0.N))
  · rw [outsAt0_D m c ⟨n, h⟩ h0 h1 h2 h3]

    dsimp only
    exact nb_D c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) scM0_1 (Memref.isWhole_whole _) (fun hh => h0 ((hcond0_0 (⟨n, h⟩ : Fin cfg0.N)).mp hh)) ((hcond0_1 (⟨n, h⟩ : Fin cfg0.N)).mpr h1) (fun hh => h2 ((hcond0_2 (⟨n, h⟩ : Fin cfg0.N)).mp hh)) (fun hh => h3 ((hcond0_3 (⟨n, h⟩ : Fin cfg0.N)).mp hh)) (iblk m c 0 (⟨n, h⟩ : Fin cfg0.N)) (iblk m c 1 (⟨n, h⟩ : Fin cfg0.N)) (outsAt0 m c ((⟨n, h⟩ : Fin cfg0.N).val - 1) (Nat.lt_of_le_of_lt (Nat.sub_le _ _) (⟨n, h⟩ : Fin cfg0.N).isLt)).2.2.2

theorem nb_step (c : Dev nD) (n : ℕ) (h : n + 1 < cfg0.N) (h1 : ¬(n + 1) % 4 = 0) :
    nbAt m c (n + 1) h = nbStep m c (n + 1) h (nbAt m c n (Nat.lt_of_succ_lt h)) := by
  have hN : cfg0.N = 64 := N_0
  have h0 : ¬(n + 1) % 8 = 0 := by omega
  unfold nbAt nbStep aTile xTile
  by_cases h2 : (n + 1) % 4 = 3
  · by_cases h3 : (n + 1) % 8 = 7
    · rw [outsAt0_E m c ⟨n + 1, h⟩ h0 h1 h2 h3]

      dsimp only
      exact nb_E c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
    · rw [outsAt0_C m c ⟨n + 1, h⟩ h0 h1 h2 h3]

      dsimp only
      exact nb_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) (fun hh => h3 ((hcond0_3 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
  · have h3 : ¬(n + 1) % 8 = 7 := by omega
    rw [outsAt0_B m c ⟨n + 1, h⟩ h0 h1 h2 h3]

    dsimp only
    exact nb_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (fun hh => h2 ((hcond0_2 (⟨n + 1, h⟩ : Fin cfg0.N)).mp hh)) (fun hh => h3 ((hcond0_3 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

theorem dg_restart (c : Dev nD) (n : ℕ) (h : n < cfg0.N) (h0 : n % 8 = 0) : dgAt m c n h = dgReset m c n h := by
  have hN : cfg0.N = 64 := N_0
  have h1 : n % 4 = 0 := by omega
  have h2 : ¬n % 4 = 3 := by omega
  have h3 : ¬n % 8 = 7 := by omega
  unfold dgAt dgReset aTile
  rw [outsAt0_A m c ⟨n, h⟩ h0 h1 h2 h3]

  dsimp only
  exact dg_A c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) scM0_1 (Memref.isWhole_whole _) ((hcond0_0 (⟨n, h⟩ : Fin cfg0.N)).mpr h0) ((hcond0_1 (⟨n, h⟩ : Fin cfg0.N)).mpr h1) (fun hh => h2 ((hcond0_2 (⟨n, h⟩ : Fin cfg0.N)).mp hh)) (fun hh => h3 ((hcond0_3 (⟨n, h⟩ : Fin cfg0.N)).mp hh)) (iblk m c 0 (⟨n, h⟩ : Fin cfg0.N)) (iblk m c 1 (⟨n, h⟩ : Fin cfg0.N))

theorem dg_step (c : Dev nD) (n : ℕ) (h : n + 1 < cfg0.N) (h0 : ¬(n + 1) % 8 = 0) :
    dgAt m c (n + 1) h = dgStep m c (n + 1) h (dgAt m c n (Nat.lt_of_succ_lt h)) := by
  have hN : cfg0.N = 64 := N_0
  unfold dgAt dgStep aTile
  by_cases h1 : (n + 1) % 4 = 0
  · have h2 : ¬(n + 1) % 4 = 3 := by omega
    have h3 : ¬(n + 1) % 8 = 7 := by omega
    rw [outsAt0_D m c ⟨n + 1, h⟩ h0 h1 h2 h3]

    dsimp only
    exact dg_D c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) ((hcond0_1 (⟨n + 1, h⟩ : Fin cfg0.N)).mpr h1) (fun hh => h2 ((hcond0_2 (⟨n + 1, h⟩ : Fin cfg0.N)).mp hh)) (fun hh => h3 ((hcond0_3 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2
  · by_cases h2 : (n + 1) % 4 = 3
    · by_cases h3 : (n + 1) % 8 = 7
      · rw [outsAt0_E m c ⟨n + 1, h⟩ h0 h1 h2 h3]

        dsimp only
        exact dg_E c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) ((hcond0_3 (⟨n + 1, h⟩ : Fin cfg0.N)).mpr h3) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
      · rw [outsAt0_C m c ⟨n + 1, h⟩ h0 h1 h2 h3]

        dsimp only
        exact dg_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) ((hcond0_2 (⟨n + 1, h⟩ : Fin cfg0.N)).mpr h2) (fun hh => h3 ((hcond0_3 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2
    · have h3 : ¬(n + 1) % 8 = 7 := by omega
      rw [outsAt0_B m c ⟨n + 1, h⟩ h0 h1 h2 h3]

      dsimp only
      exact dg_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) scM0_0 (Memref.isWhole_whole _) scM0_1 (Memref.isWhole_whole _) (fun hh => h0 ((hcond0_0 (⟨n + 1, h⟩ : Fin cfg0.N)).mp hh)) (fun hh => h1 ((hcond0_1 (⟨n + 1, h⟩ : Fin cfg0.N)).mp hh)) (fun hh => h2 ((hcond0_2 (⟨n + 1, h⟩ : Fin cfg0.N)).mp hh)) (fun hh => h3 ((hcond0_3 (⟨n + 1, h⟩ : Fin cfg0.N)).mp hh)) (iblk m c 0 (⟨n + 1, h⟩ : Fin cfg0.N)) (iblk m c 1 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2

/-- After point t the neighbour accumulator is the fold over the points of its run of four. -/
theorem nb_fold (c : Dev nD) (t : ℕ) (ht : t < cfg0.N) (h' : 4 * (t / 4) + t % 4 < cfg0.N) :
    nbAt m c t ht = Pipeline.accAt (nbReset m c) (nbStep m c) (4 * (t / 4)) (t % 4) h' :=
  Pipeline.eq_accAt_of_mod (nbAt m c) 4 (nbReset m c) (nbStep m c) (fun n h h4 => nb_restart m c n h h4)
    (fun n h h4 => nb_step m c n h h4) (by decide) t ht h'

/-- After point t the degree accumulator is the fold over the points of its run of eight. -/
theorem dg_fold (c : Dev nD) (t : ℕ) (ht : t < cfg0.N) (h' : 8 * (t / 8) + t % 8 < cfg0.N) :
    dgAt m c t ht = Pipeline.accAt (dgReset m c) (dgStep m c) (8 * (t / 8)) (t % 8) h' :=
  Pipeline.eq_accAt_of_mod (dgAt m c) 8 (dgReset m c) (dgStep m c) (fun n h h8 => dg_restart m c n h h8)
    (fun n h h8 => dg_step m c n h h8) (by decide) t ht h'

/-- The neighbour output's block after a point that writes it back is the neighbour accumulator after that point. -/
theorem out2_eq (c : Dev nD) (t : Fin cfg0.N) (h2 : t.val % 4 = 3) :
    (outsAt0 m c t.val t.isLt).1 = k0_pay1 (nbAt m c t.val t.isLt) := by
  have hN : cfg0.N = 64 := N_0
  have ht := t.isLt
  have h0 : ¬t.val % 8 = 0 := by omega
  have h1 : ¬t.val % 4 = 0 := by omega
  unfold nbAt
  by_cases h3 : t.val % 8 = 7
  · rw [outsAt0_E m c t h0 h1 h2 h3]

    dsimp only
    exact (out_E2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg k0_pay1 (nb_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)
  · rw [outsAt0_C m c t h0 h1 h2 h3]

    dsimp only
    exact (out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) (fun hh => h3 ((hcond0_3 t).mp hh)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg k0_pay1 (nb_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) (fun hh => h3 ((hcond0_3 t).mp hh)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- The degree output's block after a point that writes it back is the degree accumulator after that point. -/
theorem out3_eq (c : Dev nD) (t : Fin cfg0.N) (h3 : t.val % 8 = 7) :
    (outsAt0 m c t.val t.isLt).2.1 = k0_pay2 (dgAt m c t.val t.isLt) := by
  have hN : cfg0.N = 64 := N_0
  have ht := t.isLt
  have h0 : ¬t.val % 8 = 0 := by omega
  have h1 : ¬t.val % 4 = 0 := by omega
  have h2 : t.val % 4 = 3 := by omega
  unfold dgAt
  rw [outsAt0_E m c t h0 h1 h2 h3]

  dsimp only
  exact (out_E3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).trans (congrArg k0_pay2 (dg_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

end Cert.KernelIdeal.Acc

end
-- ==== Proof.LibColumnReduce.lean ====
/-
  Reductions over the first axis of a matrix, read at a column.

  Over the extended reals, the maximum over the first axis of an [a, c] matrix at column q, taken from an accumulator
  word, is the fold of max over the a entries (p, q) starting from the word's value; the sum over the first axis, from
  the zero accumulator, is Σ_p of the entries (p, q). Both are generic in the extents.
-/
import Idealize.ShloMosaic.Lib.ValueIdx
import Idealize.ShloMosaic.PureOps.Ideal.Laws

noncomputable section

open scoped BigOperators

namespace Cert.LibColumnReduce

open Idealize.ShloMosaic Idealize.ShloMosaic.ValueIdx

/-- The index of row p above the reduced index of column q is (p, q). -/
theorem lift_col {a c : Nat} (h : (⟨2, ![a, c]⟩ : Shape).Reduces [0] ⟨1, ![c]⟩) (q : Fin c) (p : Fin a) :
    h.lift (ix1 q) p = ix2 p q :=
  funext fun ax => Fin.ext (by
    match ax with
    | ⟨0, _⟩ => rfl
    | ⟨1, _⟩ => rfl)

/-- The maximum over the first axis of [a, c], from the accumulator word, at column q. -/
theorem col_max_apply {a c : Nat} (src : FVec Ideal ⟨2, ![a, c]⟩ .f32) (acc : BitVec 32)
    (h : (⟨2, ![a, c]⟩ : Shape).Reduces [0] ⟨1, ![c]⟩) (hφ : FKind.Formats .f32)
    (hacc : acc = FKind.maximumf.neutral .f32 hφ) (q : Fin c) :
    multiReduction .maximumf [0] ⟨1, ![c]⟩ src acc h hφ hacc (ix1 q)
      = (Finset.univ : Finset (Fin a)).fold max (Ideal.ofBits .f32 acc) (fun p => src (ix2 p q)) := by
  refine (Ideal.multiReduction_maximumf_single src acc h hφ hacc (ix1 q)).trans ?_
  exact congrArg (fun f : Fin a → EReal => (Finset.univ : Finset (Fin a)).fold max (Ideal.ofBits .f32 acc) f)
    (funext fun p => congrArg src (lift_col h q p))

/-- The sum over the first axis of [a, c], from the zero accumulator, at column q. -/
theorem col_sum_apply {a c : Nat} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (q : Fin c) :
    multiReduction .add [0] ⟨1, ![c]⟩ src 0x00000000#32 h hφ hacc (ix1 q) = ∑ p : Fin a, src (ix2 p q) := by
  refine (Ideal.multiReduction_add_single src 0x00000000#32 h hφ hacc (ix1 q)).trans ?_
  exact Finset.sum_congr rfl fun p _ => congrArg src (lift_col h q p)

end Cert.LibColumnReduce

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KPayload.lean ====
/-
  The kernel body's arithmetic read one entry at a time, over the extended reals.

  A point of the grid holds a row tile `a` of the adjacency matrix (2048 rows by 1024 columns) and the matching
  1024 rows of the six coordinate columns `x`. Its body adds to the neighbour accumulator, at (r, d), the partial
  product  Σ_k a(r, k) · x(k, d)  over the tile's 1024 columns, and adds to the 1024 degree partial sums of the
  tile's columns, at column q, the tile's column sum  Σ_p a(p, q). The resets store zeros; the two write-backs
  only re-lay the accumulators with a leading unit axis.
-/
import proofs.«182072_j35141422416050_2_alg».proof.Proof.Gen.KernelIdeal.Skeleton
import proofs.«182072_j35141422416050_2_alg».proof.Proof.LibColumnReduce
import proofs.«182072_j35141422416050_2_alg».proof.Proof.LibMatmulPlain
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The neighbour accumulator's reset value is zero everywhere. -/
theorem pay4_apply (j : S2048x6.Idx) : k0_pay4 (F := Ideal) j = 0 := by
  unfold k0_pay4
  rw [shapeCast_self]
  exact Ideal.ofBits_zero_f32

/-- The degree accumulator's reset value is zero everywhere. -/
theorem pay3_apply (j : S1x4096.Idx) : k0_pay3 (F := Ideal) j = 0 := by
  unfold k0_pay3
  rw [shapeCast_self]
  exact Ideal.ofBits_zero_f32

/-- The neighbour step: the accumulator plus the tile's partial product. -/
theorem pay7_apply (x0 : Vec Ideal S1x2048x1024 .f32) (x1 : Vec Ideal S1x1024x6 .f32) (acc : Vec Ideal S2048x6 .f32)
    (r : Fin 2048) (d : Fin 6) :
    k0_pay7 x0 x1 acc (ix2 r d) = acc (ix2 r d) + ∑ k : Fin 1024, x0 (ix3 (0 : Fin 1) r k) * x1 (ix3 (0 : Fin 1) k d) := by
  unfold k0_pay7 k0_pay5
  dsimp only
  rw [shapeCast_self]
  show acc (ix2 r d) + FloatOps.matmul _ none _ _ (constant (F := Ideal) S2048x6 .f32 0x00000000#32) (ix2 r d) = _
  rw [Cert.LibMatmulPlain.matmul_plain_zero_apply (M := 2048) (K := 1024) (N := 6)
    dot_S2048x1024_S1024x6_S2048x6_1_0_0_1_n_n rfl]
  refine congrArg (acc (ix2 r d) + ·) (Finset.sum_congr rfl fun k _ => ?_)
  rw [shapeCast_1ab_ab_apply, shapeCast_1ab_ab_apply]

/-- The degree step on the tile's columns: the partial sum plus the tile's column sum. -/
theorem pay6_apply (x0 : Vec Ideal S1x2048x1024 .f32) (v : Vec Ideal S1x1024 .f32) (q : Fin 1024) :
    k0_pay6 x0 v (ix2 (0 : Fin 1) q) = v (ix2 (0 : Fin 1) q) + ∑ p : Fin 2048, x0 (ix3 (0 : Fin 1) p q) := by
  unfold k0_pay6 k0_pay5
  dsimp only
  rw [shapeCast_self]
  show v (ix2 0 q) + shapeCast S1x1024 _ _ (ix2 (0 : Fin 1) q) = _
  rw [shapeCast_a_1a_apply]
  refine congrArg (v (ix2 0 q) + ·) ?_
  refine (Cert.LibColumnReduce.col_sum_apply (a := 2048) (c := 1024) _ _ _ _ q).trans ?_
  exact Finset.sum_congr rfl fun p _ => shapeCast_1ab_ab_apply _ _ p q

/-- The neighbour write-back re-lays the accumulator as one slab. -/
theorem pay1_apply (v : Vec Ideal S2048x6 .f32) (r : Fin 2048) (d : Fin 6) :
    k0_pay1 v (ix3 (0 : Fin 1) r d) = v (ix2 r d) := by
  unfold k0_pay1
  exact shapeCast_ab_1ab_apply v _ 0 r d

/-- The degree write-back re-lays the accumulator as one slab. -/
theorem pay2_apply (v : Vec Ideal S1x4096 .f32) (q : Fin 4096) :
    k0_pay2 v (ix3 (0 : Fin 1) (0 : Fin 1) q) = v (ix2 (0 : Fin 1) q) := by
  unfold k0_pay2
  exact shapeCast_ab_1ab_apply v _ 0 0 q

end Cert.KernelIdeal.Payload

end
-- ==== Proof.KValue.lean ====
/-
  The accumulators' contents after any point, entry by entry, over the extended reals.

  With point t = (batch t / 8, row tile t / 4 % 2, column tile t % 4): the adjacency tile the point reads is
  A[t / 8, 2048 (t / 4 % 2) + r, 1024 (t % 4) + k] and the coordinate rows are X[t / 8, 1024 (t % 4) + k, d], where X is
  the six-column array of both coordinate sets side by side. After point t the neighbour accumulator is, at (r, d),
  zero plus the sum over the column tiles s ≤ t % 4 of the tile products  Σ_k A[…, 1024 s + k] · X[…, 1024 s + k, d];
  the degree accumulator is, at column q, zero plus the sum over the points of the batch up to t whose column tile
  holds q of that tile's column sum.
-/
import proofs.«182072_j35141422416050_2_alg».proof.Proof.KAcc
import proofs.«182072_j35141422416050_2_alg».proof.Proof.KPayload
import Idealize.ShloMosaic.Lib.Pipeline.Value

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Body Cert.KernelIdeal.Acc Cert.KernelIdeal.Payload

variable (m : (ℓ : Loc nD τ sig) → Buf (Elt Ideal) ℓ)

/-- The printed index maps and the degree slice's offset, in closed form at every point of the grid. -/
theorem grid_facts : ∀ t : Fin cfg0.N,
    win0_0.index t (0 : Fin 3) = t.val / 8 ∧ win0_0.index t (1 : Fin 3) = t.val / 4 % 2 ∧ win0_0.index t (2 : Fin 3) = t.val % 4
    ∧ win0_1.index t (0 : Fin 3) = t.val / 8 ∧ win0_1.index t (1 : Fin 3) = t.val % 4 ∧ win0_1.index t (2 : Fin 3) = 0
    ∧ win0_2.index t (0 : Fin 3) = t.val / 8 ∧ win0_2.index t (1 : Fin 3) = t.val / 4 % 2 ∧ win0_2.index t (2 : Fin 3) = 0
    ∧ win0_3.index t (0 : Fin 3) = t.val / 8 ∧ win0_3.index t (1 : Fin 3) = 0 ∧ win0_3.index t (2 : Fin 3) = 0
    ∧ k0_off1 (grid0.coords t) (0 : Fin 2) = 0 ∧ k0_off1 (grid0.coords t) (1 : Fin 2) = 1024 * (t.val % 4) :=
  (by decide +kernel : ∀ t : Fin grid0.N, _)

/-- An adjacency entry and a coordinate entry named by natural numbers (zero outside the array). -/
def Aat (A : S8x4096x4096.Idx → EReal) (b i j : ℕ) : EReal :=
  if h : b < 8 ∧ i < 4096 ∧ j < 4096 then A (ix3 (⟨b, h.1⟩ : Fin 8) (⟨i, h.2.1⟩ : Fin 4096) (⟨j, h.2.2⟩ : Fin 4096)) else 0
def Xat (X : S8x4096x6.Idx → EReal) (b j d : ℕ) : EReal :=
  if h : b < 8 ∧ j < 4096 ∧ d < 6 then X (ix3 (⟨b, h.1⟩ : Fin 8) (⟨j, h.2.1⟩ : Fin 4096) (⟨d, h.2.2⟩ : Fin 6)) else 0

theorem Aat_fin (A : S8x4096x4096.Idx → EReal) (b : Fin 8) (i j : Fin 4096) : Aat A b.val i.val j.val = A (ix3 b i j) := by
  unfold Aat; rw [dif_pos ⟨b.isLt, i.isLt, j.isLt⟩]
theorem Xat_fin (X : S8x4096x6.Idx → EReal) (b : Fin 8) (j : Fin 4096) (d : Fin 6) : Xat X b.val j.val d.val = X (ix3 b j d) := by
  unfold Xat; rw [dif_pos ⟨b.isLt, j.isLt, d.isLt⟩]

/-- The adjacency tile of point n, read at an entry. -/
theorem aTile_apply (c : Dev nD) (n : ℕ) (h : n < cfg0.N) (r : Fin 2048) (k : Fin 1024) :
    aTile m c n h (ix3 (0 : Fin 1) r k)
      = Aat (V m c main_arg2) (n / 8) (2048 * (n / 4 % 2) + r.val) (1024 * (n % 4) + k.val) := by
  have hN : cfg0.N = 64 := N_0
  have e := grid_facts ⟨n, h⟩
  dsimp only at e
  obtain ⟨e0, e1, e2, -⟩ := e
  have hr := r.isLt
  have hk := k.isLt
  unfold Aat
  rw [dif_pos ⟨by omega, by omega, by omega⟩]
  unfold aTile iblk
  rw [View.read_apply]
  show V m c main_arg2 _ = V m c main_arg2 _
  congr 1
  funext a; apply Fin.ext
  match a with
  | ⟨0, _⟩ => show win0_0.index ⟨n, h⟩ (0 : Fin 3) * 1 + 1 * 0 = n / 8; rw [e0]; omega
  | ⟨1, _⟩ => show win0_0.index ⟨n, h⟩ (1 : Fin 3) * 2048 + 1 * r.val = 2048 * (n / 4 % 2) + r.val; rw [e1]; omega
  | ⟨2, _⟩ => show win0_0.index ⟨n, h⟩ (2 : Fin 3) * 1024 + 1 * k.val = 1024 * (n % 4) + k.val; rw [e2]; omega

/-- The coordinate rows of point n, read at an entry. -/
theorem xTile_apply (c : Dev nD) (n : ℕ) (h : n < cfg0.N) (k : Fin 1024) (d : Fin 6) :
    xTile m c n h (ix3 (0 : Fin 1) k d) = Xat (V m c main_call0_v0) (n / 8) (1024 * (n % 4) + k.val) d.val := by
  have hN : cfg0.N = 64 := N_0
  have e := grid_facts ⟨n, h⟩
  dsimp only at e
  obtain ⟨-, -, -, e0, e1, e2, -⟩ := e
  have hk := k.isLt
  have hd := d.isLt
  unfold Xat
  rw [dif_pos ⟨by omega, by omega, by omega⟩]
  unfold xTile iblk
  rw [View.read_apply]
  show V m c main_call0_v0 _ = V m c main_call0_v0 _
  congr 1
  funext a; apply Fin.ext
  match a with
  | ⟨0, _⟩ => show win0_1.index ⟨n, h⟩ (0 : Fin 3) * 1 + 1 * 0 = n / 8; rw [e0]; omega
  | ⟨1, _⟩ => show win0_1.index ⟨n, h⟩ (1 : Fin 3) * 1024 + 1 * k.val = 1024 * (n % 4) + k.val; rw [e1]; omega
  | ⟨2, _⟩ => show win0_1.index ⟨n, h⟩ (2 : Fin 3) * 6 + 1 * d.val = d.val; rw [e2]; omega

/-! ## The neighbour accumulator -/

/-- The neighbour step at any index. -/
theorem pay7_at (x0 : Vec Ideal S1x2048x1024 .f32) (x1 : Vec Ideal S1x1024x6 .f32) (acc : Vec Ideal S2048x6 .f32)
    (j : S2048x6.Idx) :
    k0_pay7 x0 x1 acc j
      = acc j + ∑ k : Fin 1024, x0 (ix3 (0 : Fin 1) (j 0 : Fin 2048) k) * x1 (ix3 (0 : Fin 1) k (j 1 : Fin 6)) := by
  obtain ⟨r, d, rfl⟩ : ∃ (r : Fin 2048) (d : Fin 6), j = ix2 r d := ⟨j 0, j 1, eq_ix2 j⟩
  exact pay7_apply x0 x1 acc r d

/-- The product of point n's tile with its coordinate rows, at (r, d) (zero for n past the grid). -/
def prodAt (c : Dev nD) (n : ℕ) (j : S2048x6.Idx) : EReal :=
  if h : n < cfg0.N then
    ∑ k : Fin 1024, aTile m c n h (ix3 (0 : Fin 1) (j 0 : Fin 2048) k) * xTile m c n h (ix3 (0 : Fin 1) k (j 1 : Fin 6))
  else 0

/-- After point t: zero plus the tile products of the column tiles 0 … t % 4 of t's row tile. -/
theorem nbAt_apply (c : Dev nD) (t : ℕ) (ht : t < cfg0.N) (j : S2048x6.Idx) :
    nbAt m c t ht j = 0 + ∑ s ∈ Finset.range (t % 4 + 1), prodAt m c (4 * (t / 4) + s) j := by
  have hN : cfg0.N = 64 := N_0
  have h' : 4 * (t / 4) + t % 4 < cfg0.N := by omega
  rw [nb_fold m c t ht h']
  refine Pipeline.accAt_add_apply (nbReset m c) (nbStep m c) (fun _ => (0 : EReal)) (prodAt m c) (4 * (t / 4)) 3 ?_ ?_
    (t % 4) (by omega) h' j
  · intro h i
    unfold nbReset prodAt
    rw [dif_pos h, pay7_at, pay4_apply]
  · intro n h acc i _ _
    unfold nbStep prodAt
    rw [dif_pos h, pay7_at]

/-! ## The degree accumulator -/

/-- A tile's column sum at a column named by a natural number (zero past the tile). -/
def colSum (x0 : Vec Ideal S1x2048x1024 .f32) (q : ℕ) : EReal :=
  if h : q < 1024 then ∑ p : Fin 2048, x0 (ix3 (0 : Fin 1) p (⟨q, h⟩ : Fin 1024)) else 0

/-- On the tile's own columns the degree step adds the tile's column sums. -/
theorem degStep_emb (i : grid0.Coords) (x0 : Vec Ideal S1x2048x1024 .f32) (acc : Vec Ideal S1x4096 .f32) (y : S1x1024.Idx) :
    degStep i x0 acc ((colRect i).emb y) = acc ((colRect i).emb y) + colSum x0 (y 1).val := by
  obtain ⟨u, q, rfl⟩ : ∃ (u : Fin 1) (q : Fin 1024), y = ix2 u q := ⟨y 0, y 1, eq_ix2 y⟩
  obtain rfl : u = 0 := Subsingleton.elim _ _
  show (colRect i).overlay acc (k0_pay6 x0 (View.ld acc (colRect i))) ((colRect i).emb (ix2 0 q)) = _
  rw [Rect.overlay_emb, pay6_apply]
  unfold colSum
  rw [dif_pos q.isLt]
  rfl

/-- Off the tile's columns the degree step changes nothing. -/
theorem degStep_off (i : grid0.Coords) (x0 : Vec Ideal S1x2048x1024 .f32) (acc : Vec Ideal S1x4096 .f32) (j : S1x4096.Idx)
    (hj : j ∉ (colRect i).set) : degStep i x0 acc j = acc j :=
  Rect.overlay_of_not_mem _ _ _ hj

/-- The degree step at any column of the accumulator. -/
theorem degStep_apply (t : Fin cfg0.N) (x0 : Vec Ideal S1x2048x1024 .f32) (acc : Vec Ideal S1x4096 .f32) (j : S1x4096.Idx) :
    degStep (grid0.coords t) x0 acc j
      = acc j + (if (j 1).val / 1024 = t.val % 4 then colSum x0 ((j 1).val % 1024) else 0) := by
  obtain ⟨-, -, -, -, -, -, -, -, -, -, -, -, o0, o1⟩ := grid_facts t
  have hj1 : (j 1).val < 4096 := (j 1).isLt
  have hj0 : (j 0).val < 1 := (j 0).isLt
  by_cases hq : (j 1).val / 1024 = t.val % 4
  · rw [if_pos hq]
    have hmem : j ∈ (colRect (grid0.coords t)).set := by
      rw [Rect.mem_set_unit]
      intro a
      match a with
      | ⟨0, _⟩ => show k0_off1 (grid0.coords t) (0 : Fin 2) ≤ (j 0).val ∧ (j 0).val < k0_off1 (grid0.coords t) (0 : Fin 2) + 1
                  rw [o0]; omega
      | ⟨1, _⟩ => show k0_off1 (grid0.coords t) (1 : Fin 2) ≤ (j 1).val ∧ (j 1).val < k0_off1 (grid0.coords t) (1 : Fin 2) + 1024
                  rw [o1]; omega
    obtain ⟨y, rfl⟩ : ∃ y, (colRect (grid0.coords t)).emb y = j := (colRect (grid0.coords t)).exists_idx_of_mem hmem
    rw [degStep_emb]
    have hy1 : (y 1).val < 1024 := (y 1).isLt
    have hv : (((colRect (grid0.coords t)).emb y) 1).val = k0_off1 (grid0.coords t) (1 : Fin 2) + 1 * (y 1).val := rfl
    refine congrArg (_ + ·) (congrArg (colSum x0) ?_)
    rw [hv, o1]; omega
  · rw [if_neg hq, add_zero]
    refine degStep_off _ x0 acc j fun hmem => hq ?_
    rw [Rect.mem_set_unit] at hmem
    have h1 : k0_off1 (grid0.coords t) (1 : Fin 2) ≤ (j 1).val ∧ (j 1).val < k0_off1 (grid0.coords t) (1 : Fin 2) + 1024 := hmem 1
    rw [o1] at h1
    have := t.isLt
    omega

/-- What point n adds to the degree partial sum of column j (zero for n past the grid). -/
def colAt (c : Dev nD) (n : ℕ) (j : S1x4096.Idx) : EReal :=
  if h : n < cfg0.N then (if (j 1).val / 1024 = n % 4 then colSum (aTile m c n h) ((j 1).val % 1024) else 0) else 0

/-- After point t: zero plus what the points of t's batch up to t added. -/
theorem dgAt_apply (c : Dev nD) (t : ℕ) (ht : t < cfg0.N) (j : S1x4096.Idx) :
    dgAt m c t ht j = 0 + ∑ s ∈ Finset.range (t % 8 + 1), colAt m c (8 * (t / 8) + s) j := by
  have hN : cfg0.N = 64 := N_0
  have h' : 8 * (t / 8) + t % 8 < cfg0.N := by omega
  rw [dg_fold m c t ht h']
  refine Pipeline.accAt_add_apply (dgReset m c) (dgStep m c) (fun _ => (0 : EReal)) (colAt m c) (8 * (t / 8)) 7 ?_ ?_
    (t % 8) (by omega) h' j
  · intro h i
    unfold dgReset colAt
    rw [dif_pos h, degStep_apply ⟨8 * (t / 8), h⟩, pay3_apply]
  · intro n h acc i _ _
    unfold dgStep colAt
    rw [dif_pos h, degStep_apply ⟨n, h⟩]

end Cert.KernelIdeal.KValue

end
-- ==== Proof.Spec.lean ====
/-
  The mathematics both programs compute, stated once over the extended reals and importing neither program.
  For a batch of weighted adjacency matrices `A` (8 × 4096 × 4096) and node coordinates `x` (8 × 4096 × 3):
  the neighbour sum `∑ⱼ A[b,i,j] · x[b,j,d]`, the degree of node `k` as the COLUMN sum `∑ᵢ A[b,i,k]`, and the
  graph-Laplacian entry `x[b,i,d] − (neighbour sum)/(degree of i)`, written once with the quotient and once
  with the product by the reciprocal of the degree.
-/
import Idealize.ShloMosaic.PureOps.Ideal
import Idealize.ShloMosaic.Lib.ValueIdx

noncomputable section

open scoped BigOperators

namespace Cert.Laplacian

open Idealize.ShloMosaic Idealize.ShloMosaic.ValueIdx

/-- The adjacency batch's shape and the coordinate batch's shape. -/
abbrev SA : Shape := ⟨3, ![8, 4096, 4096]⟩
abbrev SX : Shape := ⟨3, ![8, 4096, 3]⟩

/-- The degree of node `k` in batch `b`: the sum of column `k`. -/
def deg (A : SA.Idx → EReal) (b : Fin 8) (k : Fin 4096) : EReal := ∑ i : Fin 4096, A (ix3 b i k)

/-- The neighbour sum of node `i`, coordinate `d`: row `i` of `A` against column `d` of `x`. -/
def nsum (A : SA.Idx → EReal) (x : SX.Idx → EReal) (b : Fin 8) (i : Fin 4096) (d : Fin 3) : EReal :=
  ∑ j : Fin 4096, A (ix3 b i j) * x (ix3 b j d)

/-- The Laplacian entry with the neighbour sum DIVIDED by the degree. -/
def lapQ (A : SA.Idx → EReal) (x : SX.Idx → EReal) (b : Fin 8) (i : Fin 4096) (d : Fin 3) : EReal :=
  x (ix3 b i d) - Ideal.div (nsum A x b i d) (deg A b i)

/-- The Laplacian entry with the neighbour sum MULTIPLIED by the reciprocal of the degree. -/
def lapR (A : SA.Idx → EReal) (x : SX.Idx → EReal) (b : Fin 8) (i : Fin 4096) (d : Fin 3) : EReal :=
  x (ix3 b i d) - nsum A x b i d * Ideal.div 1 (deg A b i)

/-- The difference of the two Laplacians, entry by entry (quotient form): what is squared and summed. -/
def diffQ (A : SA.Idx → EReal) (x1 x2 : SX.Idx → EReal) : SX.Idx → EReal :=
  fun j => lapQ A x2 (j 0) (j 1) (j 2) - lapQ A x1 (j 0) (j 1) (j 2)

end Cert.Laplacian

end
-- ==== Proof.Algebra.lean ====
/-
  Algebra of the extended reals used to compare the two forms of the graph-Laplacian entry, and
  re-indexings of finite sums.
  * Off a zero divisor, multiplying by the reciprocal `1 / y` is dividing by `y`; hence the reciprocal
    form and the quotient form of the Laplacian entry agree wherever the degree is nonzero.
  * A sum over `Fin 4096` is the sum of its 4 consecutive blocks of 1024 terms, and of its 2 consecutive
    blocks of 2048 terms: the term of block `s` at offset `k` sits at position `n * s + k`.
  * Among `s = 0, …, 7`, exactly `s = q` and `s = q + 4` have residue `q < 4` modulo 4.
-/
import Mathlib.Algebra.BigOperators.Fin
import Mathlib.Algebra.BigOperators.Ring.Finset
import Mathlib.Logic.Equiv.Fin.Basic
import Mathlib.Data.EReal.Basic
import Mathlib.Tactic
import Idealize.ShloMosaic.PureOps.Ideal
import proofs.«182072_j35141422416050_2_alg».proof.Proof.Spec

noncomputable section

open scoped BigOperators

namespace Cert.Laplacian

open Idealize.ShloMosaic Idealize.ShloMosaic.ValueIdx

/-- Off a zero divisor, `x · (1 / y) = x / y`: both are `x · y⁻¹`. -/
theorem mul_div_one (x y : EReal) (hy : y ≠ 0) : x * Ideal.div 1 y = Ideal.div x y := by
  unfold Ideal.div
  rw [if_neg hy, if_neg hy, one_mul]

/-- Where the degree is nonzero the reciprocal form of the Laplacian entry is the quotient form. -/
theorem lapR_eq_lapQ (A : SA.Idx → EReal) (x : SX.Idx → EReal) (b : Fin 8) (i : Fin 4096) (d : Fin 3)
    (h : deg A b i ≠ 0) : lapR A x b i d = lapQ A x b i d := by
  unfold lapR lapQ
  rw [mul_div_one _ _ h]

/-- A sum over `Fin 4096`, with `4096 = m * n`, as `m` consecutive blocks of `n` terms. -/
theorem sum_blocks_aux {M : Type*} [AddCommMonoid M] (m n : ℕ) (hmn : m * n = 4096) (f : Fin 4096 → M) :
    ∑ j : Fin 4096, f j
      = ∑ s ∈ Finset.range m, ∑ k : Fin n,
          f ⟨(n * s + k.val) % 4096, Nat.mod_lt _ (by norm_num)⟩ := by
  -- the position of offset `k` in block `a`, as a bijection `Fin m × Fin n ≃ Fin 4096`
  let e : Fin m × Fin n ≃ Fin 4096 := finProdFinEquiv.trans (finCongr hmn)
  have hlt : ∀ (a : Fin m) (k : Fin n), n * a.val + k.val < 4096 := by
    intro a k
    have h1 : n * a.val + k.val < n * (a.val + 1) := by
      rw [Nat.mul_succ]; exact Nat.add_lt_add_left k.isLt _
    have h2 : n * (a.val + 1) ≤ n * m := Nat.mul_le_mul_left _ a.isLt
    have h3 : n * m = 4096 := by rw [Nat.mul_comm]; exact hmn
    omega
  have he : ∀ (a : Fin m) (k : Fin n),
      e (a, k) = ⟨(n * a.val + k.val) % 4096, Nat.mod_lt _ (by norm_num)⟩ := by
    intro a k
    apply Fin.ext
    show k.val + n * a.val = (n * a.val + k.val) % 4096
    rw [Nat.mod_eq_of_lt (hlt a k), Nat.add_comm]
  calc ∑ j : Fin 4096, f j
      = ∑ p : Fin m × Fin n, f (e p) := (Equiv.sum_comp e f).symm
    _ = ∑ a : Fin m, ∑ k : Fin n, f (e (a, k)) := Fintype.sum_prod_type _
    _ = ∑ a : Fin m, ∑ k : Fin n,
          f ⟨(n * a.val + k.val) % 4096, Nat.mod_lt _ (by norm_num)⟩ := by
        refine Finset.sum_congr rfl fun a _ => Finset.sum_congr rfl fun k _ => ?_
        rw [he a k]
    _ = ∑ s ∈ Finset.range m, ∑ k : Fin n,
          f ⟨(n * s + k.val) % 4096, Nat.mod_lt _ (by norm_num)⟩ :=
        Fin.sum_univ_eq_sum_range
          (fun s => ∑ k : Fin n, f ⟨(n * s + k.val) % 4096, Nat.mod_lt _ (by norm_num)⟩) m

/-- A sum over `Fin 4096` as 4 consecutive blocks of 1024 terms. -/
theorem sum_blocks4 {M : Type*} [AddCommMonoid M] (f : Fin 4096 → M) :
    ∑ j : Fin 4096, f j
      = ∑ s ∈ Finset.range 4, ∑ k : Fin 1024,
          f ⟨(1024 * s + k.val) % 4096, Nat.mod_lt _ (by norm_num)⟩ :=
  sum_blocks_aux 4 1024 (by norm_num) f

/-- A sum over `Fin 4096` as 2 consecutive blocks of 2048 terms. -/
theorem sum_blocks2 {M : Type*} [AddCommMonoid M] (f : Fin 4096 → M) :
    ∑ i : Fin 4096, f i
      = ∑ s ∈ Finset.range 2, ∑ r : Fin 2048,
          f ⟨(2048 * s + r.val) % 4096, Nat.mod_lt _ (by norm_num)⟩ :=
  sum_blocks_aux 2 2048 (by norm_num) f

/-- Among `s = 0, …, 7` the residue `q < 4` modulo 4 is taken exactly at `s = q` and `s = q + 4`. -/
theorem sum_pick8 {M : Type*} [AddCommMonoid M] (g : ℕ → M) (q : ℕ) (hq : q < 4) :
    ∑ s ∈ Finset.range 8, (if s % 4 = q then g s else 0) = g q + g (q + 4) := by
  interval_cases q <;> simp [Finset.sum_range_succ]

end Cert.Laplacian

end
-- ==== Proof.KFinal.lean ====
/-
  The two arrays the region leaves, as whole-array functions of the arguments.

  The neighbour array ends holding, at (b, i, d), the full row sum  Σ_j A[b, i, j] · X[b, j, d]  over all 4096 columns:
  the block written back at the last column tile of row tile (b, i / 2048) is zero plus the four tile products of
  that row tile, and a sum over 4096 columns is the sum of its four runs of 1024. The degree array ends holding, at
  (b, 0, q), the full column sum  Σ_i A[b, i, q]:  the block written back at the last point of batch b is zero plus
  the column sums of the two tiles (rows 0 … 2047 and 2048 … 4095) whose column tile holds q.
-/
import proofs.«182072_j35141422416050_2_alg».proof.Proof.KValue
import proofs.«182072_j35141422416050_2_alg».proof.Proof.Algebra

noncomputable section

open scoped BigOperators

namespace Cert.KernelIdeal.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Acc Cert.KernelIdeal.Payload
open Cert.KernelIdeal.KValue Cert.Laplacian

variable (m : (ℓ : Loc nD τ sig) → Buf (Elt Ideal) ℓ)

/-- An entry named by naturals is the entry at the indices with those values. -/
theorem A_nat (A : S8x4096x4096.Idx → EReal) (b : Fin 8) (i j : Fin 4096) (nb ni nj : ℕ)
    (hb : nb = b.val) (hi : ni = i.val) (hj : nj = j.val) : Aat A nb ni nj = A (ix3 b i j) := by
  subst hb hi hj; exact Aat_fin A b i j
theorem X_nat (X : S8x4096x6.Idx → EReal) (b : Fin 8) (j : Fin 4096) (d : Fin 6) (nb nj nd : ℕ)
    (hb : nb = b.val) (hj : nj = j.val) (hd : nd = d.val) : Xat X nb nj nd = X (ix3 b j d) := by
  subst hb hj hd; exact Xat_fin X b j d

/-- The adjacency batch and the six-column coordinate batch as the region finds them. -/
abbrev arrA (c : Dev nD) : S8x4096x4096.Idx → EReal := V m c main_arg2
abbrev arrX (c : Dev nD) : S8x4096x6.Idx → EReal := V m c main_call0_v0

/-- The neighbour array after the run: every entry a full row sum. -/
def nbArr (c : Dev nD) : S8x4096x6.Idx → EReal := fun J =>
  ∑ j : Fin 4096, arrA m c (ix3 (J 0 : Fin 8) (J 1 : Fin 4096) j) * arrX m c (ix3 (J 0 : Fin 8) j (J 2 : Fin 6))

/-- The degree array after the run: every entry a full column sum. -/
def dgArr (c : Dev nD) : S8x1x4096.Idx → EReal := fun J =>
  ∑ i : Fin 4096, arrA m c (ix3 (J 0 : Fin 8) i (J 2 : Fin 4096))

/-- What a point with t % 4 = 3 writes back is its block of the neighbour array. -/
theorem flushed2_eq (c : Dev nD) (t : Fin cfg0.N) (hf : (cfg0.win 2).flush t = true) :
    (dats m 0 c).flushed 2 t = ((cfg0.win 2).blk t).view.read (Elt Ideal) (nbArr m c) := by
  have hN : cfg0.N = 64 := N_0
  have ht := t.isLt
  have h3 : t.val % 4 = 3 := (flush0_2 t).mp hf
  obtain ⟨-, -, -, -, -, -, e0, e1, e2, -⟩ := grid_facts t
  show (cfg0.win 2).cut (grid0.coords t) ((dats m 0 c).after 2 t) = _
  rw [after0_2, out2_eq m c t h3]
  funext y
  obtain ⟨u, r, d, rfl⟩ : ∃ (u : Fin 1) (r : Fin 2048) (d : Fin 6), y = ix3 u r d := ⟨y 0, y 1, y 2, eq_ix3 y⟩
  obtain rfl : u = 0 := Subsingleton.elim _ _
  have hr := r.isLt
  have hd := d.isLt
  show k0_pay1 (nbAt m c t.val t.isLt) (ix3 0 r d) = nbArr m c (((cfg0.win 2).blk t).view.emb (ix3 0 r d))
  have v0 : ((((cfg0.win 2).blk t).view.emb (ix3 (0 : Fin 1) r d)) 0).val = t.val / 8 := by
    show win0_2.index t (0 : Fin 3) * 1 + 1 * 0 = _; rw [e0]; omega
  have v1 : ((((cfg0.win 2).blk t).view.emb (ix3 (0 : Fin 1) r d)) 1).val = 2048 * (t.val / 4 % 2) + r.val := by
    show win0_2.index t (1 : Fin 3) * 2048 + 1 * r.val = _; rw [e1]; omega
  have v2 : ((((cfg0.win 2).blk t).view.emb (ix3 (0 : Fin 1) r d)) 2).val = d.val := by
    show win0_2.index t (2 : Fin 3) * 6 + 1 * d.val = _; rw [e2]; omega
  generalize ((cfg0.win 2).blk t).view.emb (ix3 (0 : Fin 1) r d) = J at v0 v1 v2 ⊢
  rw [pay1_apply, nbAt_apply, zero_add]
  unfold nbArr
  rw [sum_blocks4, show t.val % 4 + 1 = 4 by omega]
  refine Finset.sum_congr rfl fun s hs => ?_
  have hs4 : s < 4 := Finset.mem_range.mp hs
  unfold prodAt
  rw [dif_pos (by omega)]
  refine Finset.sum_congr rfl fun k _ => ?_
  have hk := k.isLt
  rw [aTile_apply, xTile_apply]
  exact congrArg₂ (· * ·)
    (A_nat _ (J 0) (J 1) ⟨(1024 * s + k.val) % 4096, Nat.mod_lt _ (by norm_num)⟩ _ _ _ (by omega) (by omega) (by dsimp only; omega))
    (X_nat _ (J 0) ⟨(1024 * s + k.val) % 4096, Nat.mod_lt _ (by norm_num)⟩ (J 2) _ _ _ (by omega) (by dsimp only; omega) (by omega))

/-- What a point with t % 8 = 7 writes back is its block of the degree array. -/
theorem flushed3_eq (c : Dev nD) (t : Fin cfg0.N) (hf : (cfg0.win 3).flush t = true) :
    (dats m 0 c).flushed 3 t = ((cfg0.win 3).blk t).view.read (Elt Ideal) (dgArr m c) := by
  have hN : cfg0.N = 64 := N_0
  have ht := t.isLt
  have h7 : t.val % 8 = 7 := (flush0_3 t).mp hf
  obtain ⟨-, -, -, -, -, -, -, -, -, e0, e1, e2, -⟩ := grid_facts t
  show (cfg0.win 3).cut (grid0.coords t) ((dats m 0 c).after 3 t) = _
  rw [after0_3, out3_eq m c t h7]
  funext y
  obtain ⟨u, u', q, rfl⟩ : ∃ (u u' : Fin 1) (q : Fin 4096), y = ix3 u u' q := ⟨y 0, y 1, y 2, eq_ix3 y⟩
  obtain rfl : u = 0 := Subsingleton.elim _ _
  obtain rfl : u' = 0 := Subsingleton.elim _ _
  have hq := q.isLt
  show k0_pay2 (dgAt m c t.val t.isLt) (ix3 0 0 q) = dgArr m c (((cfg0.win 3).blk t).view.emb (ix3 0 0 q))
  have v0 : ((((cfg0.win 3).blk t).view.emb (ix3 (0 : Fin 1) (0 : Fin 1) q)) 0).val = t.val / 8 := by
    show win0_3.index t (0 : Fin 3) * 1 + 1 * 0 = _; rw [e0]; omega
  have v2 : ((((cfg0.win 3).blk t).view.emb (ix3 (0 : Fin 1) (0 : Fin 1) q)) 2).val = q.val := by
    show win0_3.index t (2 : Fin 3) * 4096 + 1 * q.val = _; rw [e2]; omega
  generalize ((cfg0.win 3).blk t).view.emb (ix3 (0 : Fin 1) (0 : Fin 1) q) = J at v0 v2 ⊢
  rw [pay2_apply, dgAt_apply, zero_add, show t.val % 8 + 1 = 8 by omega]
  -- each point of the batch adds its tile's column sum exactly when its column tile holds q
  have key : ∀ s ∈ Finset.range 8, colAt m c (8 * (t.val / 8) + s) (ix2 (0 : Fin 1) q)
      = if s % 4 = q.val / 1024 then
          (if h : 8 * (t.val / 8) + s < cfg0.N then colSum (aTile m c (8 * (t.val / 8) + s) h) (q.val % 1024) else 0)
        else 0 := by
    intro s hs
    have hs8 : s < 8 := Finset.mem_range.mp hs
    unfold colAt
    rw [dif_pos (by omega)]
    show (if q.val / 1024 = (8 * (t.val / 8) + s) % 4 then _ else 0) = _
    by_cases hq' : s % 4 = q.val / 1024
    · rw [if_pos hq', if_pos (by omega), dif_pos (by omega)]
    · rw [if_neg hq', if_neg (by omega)]
  rw [Finset.sum_congr rfl key,
    sum_pick8 (fun s => if h : 8 * (t.val / 8) + s < cfg0.N then colSum (aTile m c (8 * (t.val / 8) + s) h) (q.val % 1024) else 0)
      (q.val / 1024) (by omega)]
  rw [dif_pos (by omega), dif_pos (by omega)]
  unfold dgArr colSum
  rw [dif_pos (by omega), dif_pos (by omega), sum_blocks2, Finset.sum_range_succ, Finset.sum_range_succ, Finset.sum_range_zero, zero_add]
  refine congrArg₂ (· + ·) (Finset.sum_congr rfl fun p _ => ?_) (Finset.sum_congr rfl fun p _ => ?_)
  · have hp := p.isLt
    rw [aTile_apply]
    exact A_nat _ (J 0) ⟨(2048 * 0 + p.val) % 4096, Nat.mod_lt _ (by norm_num)⟩ (J 2) _ _ _ (by omega) (by dsimp only; omega) (by dsimp only; omega)
  · have hp := p.isLt
    rw [aTile_apply]
    exact A_nat _ (J 0) ⟨(2048 * 1 + p.val) % 4096, Nat.mod_lt _ (by norm_num)⟩ (J 2) _ _ _ (by omega) (by dsimp only; omega) (by dsimp only; omega)

/-- Every entry of the neighbour array lies in the block of the last column tile of its row tile. -/
theorem cover2 (J : S8x4096x6.Idx) : ∃ t : Fin cfg0.N, (cfg0.win 2).flush t = true ∧ J ∈ ((cfg0.win 2).blk t).view.set := by
  have hN : cfg0.N = 64 := N_0
  have h0 : (J 0).val < 8 := (J 0).isLt
  have h1 : (J 1).val < 4096 := (J 1).isLt
  have h2 : (J 2).val < 6 := (J 2).isLt
  obtain ⟨t, ht⟩ : ∃ t : Fin cfg0.N, t.val = 8 * (J 0).val + 4 * ((J 1).val / 2048) + 3 := ⟨⟨_, by omega⟩, rfl⟩
  obtain ⟨-, -, -, -, -, -, e0, e1, e2, -⟩ := grid_facts t
  refine ⟨t, (flush0_2 t).mpr (by omega), ?_⟩
  show J ∈ ((View.whole main_call0_v1_0).slice (win0_2.rect t)).set
  rw [View.set_slice_whole, Rect.mem_set_unit]
  intro a
  match a with
  | ⟨0, _⟩ => show win0_2.index t (0 : Fin 3) * 1 ≤ (J 0).val ∧ (J 0).val < win0_2.index t (0 : Fin 3) * 1 + 1
              rw [e0]; omega
  | ⟨1, _⟩ => show win0_2.index t (1 : Fin 3) * 2048 ≤ (J 1).val ∧ (J 1).val < win0_2.index t (1 : Fin 3) * 2048 + 2048
              rw [e1]; omega
  | ⟨2, _⟩ => show win0_2.index t (2 : Fin 3) * 6 ≤ (J 2).val ∧ (J 2).val < win0_2.index t (2 : Fin 3) * 6 + 6
              rw [e2]; omega

/-- Every entry of the degree array lies in the block of the last point of its batch. -/
theorem cover3 (J : S8x1x4096.Idx) : ∃ t : Fin cfg0.N, (cfg0.win 3).flush t = true ∧ J ∈ ((cfg0.win 3).blk t).view.set := by
  have hN : cfg0.N = 64 := N_0
  have h0 : (J 0).val < 8 := (J 0).isLt
  have h1 : (J 1).val < 1 := (J 1).isLt
  have h2 : (J 2).val < 4096 := (J 2).isLt
  obtain ⟨t, ht⟩ : ∃ t : Fin cfg0.N, t.val = 8 * (J 0).val + 7 := ⟨⟨_, by omega⟩, rfl⟩
  obtain ⟨-, -, -, -, -, -, -, -, -, e0, e1, e2, -⟩ := grid_facts t
  refine ⟨t, (flush0_3 t).mpr (by omega), ?_⟩
  show J ∈ ((View.whole main_call0_v1_1).slice (win0_3.rect t)).set
  rw [View.set_slice_whole, Rect.mem_set_unit]
  intro a
  match a with
  | ⟨0, _⟩ => show win0_3.index t (0 : Fin 3) * 1 ≤ (J 0).val ∧ (J 0).val < win0_3.index t (0 : Fin 3) * 1 + 1
              rw [e0]; omega
  | ⟨1, _⟩ => show win0_3.index t (1 : Fin 3) * 1 ≤ (J 1).val ∧ (J 1).val < win0_3.index t (1 : Fin 3) * 1 + 1
              rw [e1]; omega
  | ⟨2, _⟩ => show win0_3.index t (2 : Fin 3) * 4096 ≤ (J 2).val ∧ (J 2).val < win0_3.index t (2 : Fin 3) * 4096 + 4096
              rw [e2]; omega

/-- The neighbour array after the run. -/
theorem final2 (c : Dev nD) : (dats m 0 c).arrAt 2 cfg0.N = nbArr m c :=
  (dats m 0 c).arrAt_eq_of_cover 2 (nbArr m c) (flushed2_eq m c) cover2

/-- The degree array after the run. -/
theorem final3 (c : Dev nD) : (dats m 0 c).arrAt 3 cfg0.N = dgArr m c :=
  (dats m 0 c).arrAt_eq_of_cover 3 (dgArr m c) (flushed3_eq m c) cover3

end Cert.KernelIdeal.KFinal

end
-- ==== Proof.KTail.lean ====
/-
  The host operations around the kernel, read at an index over the extended reals.
  * Before the kernel the two coordinate batches are concatenated along the last axis: columns 0, 1, 2 of the
    result are the first batch and columns 3, 4, 5 the second.
  * After it, from the neighbour sums `N` (8 × 4096 × 6) and the degrees `G` (8 × 1 × 4096): the degrees are
    reshaped to 8 × 4096, the reciprocal `1 / G[b,0,i]` is taken and broadcast along the coordinate axis, the two
    halves of `N` are multiplied by it and subtracted from the coordinate batches, and the second Laplacian
    minus the first is formed. At `(b, i, d)` this is
      `(x₂[b,i,d] − N[b,i,d+3] · (1 / G[b,0,i])) − (x₁[b,i,d] − N[b,i,d] · (1 / G[b,0,i]))`.
  * Last, the squares of these differences are summed over every index, from zero.
-/
import proofs.«182072_j35141422416050_2_alg».proof.Proof.Gen.KernelIdeal.Launch
import proofs.«182072_j35141422416050_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Tail

open Idealize.ShloMosaic Idealize.ShloMosaic.ValueIdx Cert.KernelIdeal Cert.KernelIdeal.Gen

/-! ## The concatenation before the kernel -/

/-- The two coordinate batches side by side along the last axis. -/
def catX (p1 p2 : FVec Ideal S8x4096x3 .f32) : FVec Ideal S8x4096x6 .f32 :=
  concatenate S8x4096x6 2 [⟨S8x4096x3, p1⟩, ⟨S8x4096x3, p2⟩] concatenates_S8x4096x3_S8x4096x3_S8x4096x6_d2

/-- Columns 0, 1, 2 of the concatenation are the first batch. -/
theorem catX_left (p1 p2 : FVec Ideal S8x4096x3 .f32) (b : Fin 8) (j : Fin 4096) (d : Fin 3) :
    catX p1 p2 (ix3 b j (⟨d.val, by omega⟩ : Fin 6)) = p1 (ix3 b j d) := by
  unfold catX
  refine concatenate_pair_apply_left (t := S8x4096x6) _ p1 p2 _ _ rfl (ix3 b j d) (fun a => ?_)
  match a with
  | ⟨0, _⟩ => rfl
  | ⟨1, _⟩ => rfl
  | ⟨2, _⟩ => rfl

/-- Columns 3, 4, 5 of the concatenation are the second batch. -/
theorem catX_right (p1 p2 : FVec Ideal S8x4096x3 .f32) (b : Fin 8) (j : Fin 4096) (d : Fin 3) :
    catX p1 p2 (ix3 b j (⟨d.val + 3, by omega⟩ : Fin 6)) = p2 (ix3 b j d) := by
  unfold catX
  refine concatenate_pair_apply_right (t := S8x4096x6) _ p1 p2 _ _ rfl rfl (ix3 b j d) (fun a ha => ?_) ?_
  · match a with
    | ⟨0, _⟩ => rfl
    | ⟨1, _⟩ => rfl
    | ⟨2, _⟩ => exact absurd rfl ha
  · rfl

/-! ## The operations after the kernel, one at a time -/

/-- The f32 word `0x3F800000` is one. -/
theorem one_word : Ideal.ofBits .f32 0x3F800000#32 = 1 := Ideal.ofBits_one_f32

/-- The degrees reshaped from 8 × 1 × 4096 to 8 × 4096: `(b, i)` reads `(b, 0, i)`. -/
theorem reshape_apply (G : FVec Ideal S8x1x4096 .f32) (b : Fin 8) (i : Fin 4096) :
    shapeCast S8x4096 G shapeCasts_S8x1x4096_S8x4096 (ix2 b i) = G (ix3 b (0 : Fin 1) i) :=
  shapeCast_apply G _ _ _ (by
    rw [Shape.rowMajor_val_three, Shape.rowMajor_val_two]
    show (b.val * 1 + 0) * 4096 + i.val = b.val * 4096 + i.val
    omega)

/-- The first half of the neighbour sums: column `d`. -/
theorem slice0_apply (N : FVec Ideal S8x4096x6 .f32) (b : Fin 8) (i : Fin 4096) (d : Fin 3) :
    extractStridedSlice S8x4096x3 ![0, 0, 0] N slices_S8x4096x6_S8x4096x3_0_0_0 (ix3 b i d)
      = N (ix3 b i (⟨d.val, by omega⟩ : Fin 6)) :=
  extractStridedSlice_apply _ N _ _ _ (fun a => by
    match a with
    | ⟨0, _⟩ => show b.val = 0 + b.val; omega
    | ⟨1, _⟩ => show i.val = 0 + i.val; omega
    | ⟨2, _⟩ => show d.val = 0 + d.val; omega)

/-- The second half of the neighbour sums: column `d + 3`. -/
theorem slice3_apply (N : FVec Ideal S8x4096x6 .f32) (b : Fin 8) (i : Fin 4096) (d : Fin 3) :
    extractStridedSlice S8x4096x3 ![0, 0, 3] N slices_S8x4096x6_S8x4096x3_0_0_3 (ix3 b i d)
      = N (ix3 b i (⟨d.val + 3, by omega⟩ : Fin 6)) :=
  extractStridedSlice_apply _ N _ _ _ (fun a => by
    match a with
    | ⟨0, _⟩ => show b.val = 0 + b.val; omega
    | ⟨1, _⟩ => show i.val = 0 + i.val; omega
    | ⟨2, _⟩ => show d.val + 3 = 3 + d.val; omega)

/-- An 8 × 4096 array given a trailing unit axis: `(b, i, u)` reads `(b, i)`. -/
theorem bcast1_apply (y : FVec Ideal S8x4096 .f32) (b : Fin 8) (i : Fin 4096) (u : Fin 1) :
    broadcastInDim S8x4096x1 ![0, 1] bcast_S8x4096_S8x4096x1_0_1 y (ix3 b i u) = y (ix2 b i) :=
  broadcastInDim_apply _ bcast_S8x4096_S8x4096x1_0_1 y (ix3 b i u) (ix2 b i) (fun a => by
    match a with
    | ⟨0, _⟩ => show b.val = if (8 : Nat) = 1 then 0 else b.val; rw [if_neg (by decide)]
    | ⟨1, _⟩ => show i.val = if (4096 : Nat) = 1 then 0 else i.val; rw [if_neg (by decide)])

/-- An 8 × 4096 × 1 array repeated along its unit axis: `(b, i, d)` reads `(b, i, 0)`. -/
theorem bcast3_apply (y : FVec Ideal S8x4096x1 .f32) (b : Fin 8) (i : Fin 4096) (d : Fin 3) :
    broadcastInDim S8x4096x3 ![0, 1, 2] bcast_S8x4096x1_S8x4096x3_0_1_2 y (ix3 b i d) = y (ix3 b i (0 : Fin 1)) :=
  broadcastInDim_apply _ bcast_S8x4096x1_S8x4096x3_0_1_2 y (ix3 b i d) (ix3 b i (0 : Fin 1)) (fun a => by
    match a with
    | ⟨0, _⟩ => show b.val = if (8 : Nat) = 1 then 0 else b.val; rw [if_neg (by decide)]
    | ⟨1, _⟩ => show i.val = if (4096 : Nat) = 1 then 0 else i.val; rw [if_neg (by decide)]
    | ⟨2, _⟩ => show 0 = if (1 : Nat) = 1 then 0 else d.val; rw [if_pos rfl])

/-- The reciprocal of the degrees, broadcast along the coordinate axis: at `(b, i, d)` it is `1 / G[b,0,i]`. -/
theorem recip3_apply (G : FVec Ideal S8x1x4096 .f32) (b : Fin 8) (i : Fin 4096) (d : Fin 3) :
    broadcastInDim S8x4096x3 ![0, 1, 2] bcast_S8x4096x1_S8x4096x3_0_1_2
        (broadcastInDim S8x4096x1 ![0, 1] bcast_S8x4096_S8x4096x1_0_1
          (Host.divf (F := Ideal)
            (broadcastInDim S8x4096 ![] bcast_S_S8x4096 (constant (F := Ideal) S_ .f32 0x3F800000#32))
            (shapeCast S8x4096 G shapeCasts_S8x1x4096_S8x4096))) (ix3 b i d)
      = Ideal.div 1 (G (ix3 b (0 : Fin 1) i)) := by
  rw [bcast3_apply, bcast1_apply, hostDivf_apply, broadcastInDim_scalar_apply, constant_apply, one_word,
    reshape_apply]

/-! ## Their composition -/

/-- The second Laplacian minus the first, from the kernel's two outputs and the two coordinate batches. -/
def tailD (N : FVec Ideal S8x4096x6 .f32) (G : FVec Ideal S8x1x4096 .f32) (p1 p2 : FVec Ideal S8x4096x3 .f32) :
    FVec Ideal S8x4096x3 .f32 :=
  let dg : FVec Ideal S8x4096 .f32 := shapeCast S8x4096 G shapeCasts_S8x1x4096_S8x4096
  let n1 : FVec Ideal S8x4096x3 .f32 := extractStridedSlice S8x4096x3 ![0, 0, 0] N slices_S8x4096x6_S8x4096x3_0_0_0
  let n2 : FVec Ideal S8x4096x3 .f32 := extractStridedSlice S8x4096x3 ![0, 0, 3] N slices_S8x4096x6_S8x4096x3_0_0_3
  let inv : FVec Ideal S8x4096 .f32 :=
    Host.divf (F := Ideal) (broadcastInDim S8x4096 ![] bcast_S_S8x4096 (constant (F := Ideal) S_ .f32 0x3F800000#32)) dg
  let inv3 : FVec Ideal S8x4096x3 .f32 :=
    broadcastInDim S8x4096x3 ![0, 1, 2] bcast_S8x4096x1_S8x4096x3_0_1_2
      (broadcastInDim S8x4096x1 ![0, 1] bcast_S8x4096_S8x4096x1_0_1 inv)
  subf (subf p2 (mulf n2 inv3)) (subf p1 (mulf n1 inv3))

/-- The difference read at `(b, i, d)`. -/
theorem tailD_apply (N : FVec Ideal S8x4096x6 .f32) (G : FVec Ideal S8x1x4096 .f32)
    (p1 p2 : FVec Ideal S8x4096x3 .f32) (b : Fin 8) (i : Fin 4096) (d : Fin 3) :
    tailD N G p1 p2 (ix3 b i d)
      = (p2 (ix3 b i d) - N (ix3 b i (⟨d.val + 3, by omega⟩ : Fin 6)) * Ideal.div 1 (G (ix3 b (0 : Fin 1) i)))
        - (p1 (ix3 b i d) - N (ix3 b i (⟨d.val, by omega⟩ : Fin 6)) * Ideal.div 1 (G (ix3 b (0 : Fin 1) i))) := by
  unfold tailD
  simp only [subf_apply, mulf_apply]
  rw [slice3_apply, slice0_apply, recip3_apply]

/-- The sum of the squared differences over every index, from zero. -/
def tailSum (D : FVec Ideal S8x4096x3 .f32) : FVec Ideal S_ .f32 :=
  Host.reduceAdd (F := Ideal) (mulf D D) (constant (F := Ideal) S_ .f32 0x00000000#32)
    reducesTo_S8x4096x3_S_d0_1_2 h_S_

end Cert.KernelIdeal.Tail

end
-- ==== Proof.KRun.lean ====
/-
  The kernel program's result as a function of its three arguments.

  After the region the host divides one by each degree, multiplies the two halves of the neighbour array by that
  reciprocal, subtracts from the two coordinate sets, takes the difference of the two Laplacians, squares and sums.
  With the neighbour array equal to the full row sums against the two coordinate sets side by side and the degree
  array equal to the full column sums, the difference array is, entry by entry, the reciprocal form of the
  Laplacian difference; where no degree is zero, a product with the reciprocal of the degree is the quotient by
  it, so the difference array is the quotient form, and the result is the sum of its squares.
-/
import proofs.«182072_j35141422416050_2_alg».proof.Proof.KFinal
import proofs.«182072_j35141422416050_2_alg».proof.Proof.KTail
import Idealize.ShloMosaic.Lib.StableHlo.Run

noncomputable section

open scoped BigOperators

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KFinal Cert.KernelIdeal.Tail Cert.Laplacian

variable (m : (ℓ : Loc nD τ sig) → Buf (Elt Ideal) ℓ) (ρ : Dev nD → PrngReg)

/-- The six-column batch the region finds is the two coordinate sets side by side. -/
theorem X_eq (c : Dev nD) :
    arrX m c = catX (m ((c : Thread nD τ).loc main_arg0)) (m ((c : Thread nD τ).loc main_arg1)) := by
  show StableHlo.after hostOps0 (fun b => m (c, b)) (Proc.devRef .tc main_call0_v0) = _
  after_results
  rfl

/-- The neighbour array's two halves are the neighbour sums of the two coordinate sets. -/
theorem nbArr_left (c : Dev nD) (b : Fin 8) (i : Fin 4096) (d : Fin 3) :
    nbArr m c (ix3 b i (⟨d.val, by omega⟩ : Fin 6))
      = nsum (m ((c : Thread nD τ).loc main_arg2)) (m ((c : Thread nD τ).loc main_arg0)) b i d := by
  unfold nbArr nsum
  refine Finset.sum_congr rfl fun j _ => ?_
  rw [X_eq]
  exact congrArg₂ (· * ·) (congrFun (V_main_arg2 m c) _) (catX_left _ _ b j d)

theorem nbArr_right (c : Dev nD) (b : Fin 8) (i : Fin 4096) (d : Fin 3) :
    nbArr m c (ix3 b i (⟨d.val + 3, by omega⟩ : Fin 6))
      = nsum (m ((c : Thread nD τ).loc main_arg2)) (m ((c : Thread nD τ).loc main_arg1)) b i d := by
  unfold nbArr nsum
  refine Finset.sum_congr rfl fun j _ => ?_
  rw [X_eq]
  exact congrArg₂ (· * ·) (congrFun (V_main_arg2 m c) _) (catX_right _ _ b j d)

/-- The degree array holds the degrees. -/
theorem dgArr_apply (c : Dev nD) (b : Fin 8) (i : Fin 4096) :
    dgArr m c (ix3 b (0 : Fin 1) i) = deg (m ((c : Thread nD τ).loc main_arg2)) b i := by
  unfold dgArr deg
  exact Finset.sum_congr rfl fun k _ => congrFun (V_main_arg2 m c) _

/-- Where no degree is zero, the kernel's difference array is the quotient form of the Laplacian difference. -/
theorem tailD_eq (c : Dev nD) (hdeg : ∀ (b : Fin 8) (k : Fin 4096), deg (m ((c : Thread nD τ).loc main_arg2)) b k ≠ 0) :
    tailD (nbArr m c) (dgArr m c) (m ((c : Thread nD τ).loc main_arg0)) (m ((c : Thread nD τ).loc main_arg1))
      = diffQ (m ((c : Thread nD τ).loc main_arg2)) (m ((c : Thread nD τ).loc main_arg0)) (m ((c : Thread nD τ).loc main_arg1)) := by
  funext j
  obtain ⟨b, i, d, rfl⟩ : ∃ (b : Fin 8) (i : Fin 4096) (d : Fin 3), j = ix3 b i d := ⟨j 0, j 1, j 2, eq_ix3 j⟩
  rw [tailD_apply, nbArr_left, nbArr_right, dgArr_apply]
  show lapR _ _ b i d - lapR _ _ b i d = lapQ _ _ b i d - lapQ _ _ b i d
  rw [lapR_eq_lapQ _ _ b i d (hdeg b i), lapR_eq_lapQ _ _ b i d (hdeg b i)]

/-- The host operations after the region leave, in the result buffer, the sum of squares of the difference array. -/
theorem tail_eq (c : Dev nD) :
    Pipeline.afterTail₀ cfgs (dats m) 0 (V0 m) [hostOps1] c main_v0
      = tailSum (tailD (nbArr m c) (dgArr m c) (m ((c : Thread nD τ).loc main_arg0)) (m ((c : Thread nD τ).loc main_arg1))) := by
  unfold Pipeline.afterTail₀
  show StableHlo.after hostOps1 _ (Proc.devRef .tc main_v0) = _
  after_results
  have w2 : Pipeline.withArrays (cfgs 0).spec c (V0 m c) (fun w => (dats m 0 c).arrAt w (cfgs 0).N)
      (Proc.devRef .tc main_call0_v1_0) = nbArr m c :=
    (Pipeline.withArrays_arr spec0 winFacts0.arr_inj c _ _ 2).trans (final2 m c)
  have w3 : Pipeline.withArrays (cfgs 0).spec c (V0 m c) (fun w => (dats m 0 c).arrAt w (cfgs 0).N)
      (Proc.devRef .tc main_call0_v1_1) = dgArr m c :=
    (Pipeline.withArrays_arr spec0 winFacts0.arr_inj c _ _ 3).trans (final3 m c)
  have wa0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0 (by exact (by decide : ∀ w, Pipeline.arrRef spec0 w ≠ main_arg0))).trans
      (V_main_arg0 m c)
  have wa1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  rw [← w2, ← w3, ← wa0, ← wa1]
  rfl

/-- THE RUN: every weakly fair execution of the kernel program ends with the result at the sum of squares of the
    difference array and the three arguments unchanged. -/
theorem run : θ_run defs (onTc (τ := τ) (main (F := Ideal))) ⟨m, fun _ => 0, ρ⟩ (fun r => ∀ c : Dev nD,
      r.2.mem ((c.tc : Thread nD τ).loc main_v0)
        = tailSum (tailD (nbArr m c) (dgArr m c) (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v0 (Pipeline.mem_restRefs_of main_v0 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 0).trans ((((dats m) 0 c).arrAt_in 0 rfl _).trans ((A_eq m c 0).trans (V_main_arg2 m c)))⟩)
    (run_main m ρ)

end Cert.KernelIdeal.KRun

end
-- ==== Proof.RefRead.lean ====
/-
  What the reference program's difference stage holds, entry by entry.
  Reading the stages of the reference one operation at a time: at the index (b, i, d) the stage written by the
  last subtraction is
      (x2[b,i,d] - (∑ⱼ A[b,i,j] · x2[b,j,d]) / (∑ₖ A[b,k,i])) - (x1[b,i,d] - (∑ⱼ A[b,i,j] · x1[b,j,d]) / (∑ₖ A[b,k,i])),
  the difference of the two graph-Laplacian entries in quotient form: the reduction over axis 1 of A is the
  column sum (its initial value is the zero constant, which drops), the contraction of A's axis 2 against the
  coordinates' axis 1 is the neighbour sum, and the two broadcasts only repeat the degree along the last axis.
  The final result of the program is the total sum of the squares of that stage.
-/
import proofs.«182072_j35141422416050_2_alg».proof.Proof.Gen.ReferenceIdeal.Read
import proofs.«182072_j35141422416050_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The stage of the last subtraction: the second Laplacian minus the first, as the reference composes it. -/
def dref (p1 p2 : FVec Ideal S8x4096x3 .f32) (A : FVec Ideal S8x4096x4096 .f32) : FVec Ideal S8x4096x3 .f32 :=
  Read.val_main_v12 (F := Ideal) p1 p2 A

/-- The index the left operand of the contraction is read at: row `i`, column `k` of batch `b`. -/
theorem lidx_v1 (b : Fin 8) (i : Fin 4096) (d : Fin 3) (k : Fin 4096) :
    Read.lidx_main_v1 (ix3 b i d) k = ix3 b i k :=
  funext fun a => by match a with | ⟨0, _⟩ => rfl | ⟨1, _⟩ => rfl | ⟨2, _⟩ => rfl
theorem ridx_v1 (b : Fin 8) (i : Fin 4096) (d : Fin 3) (k : Fin 4096) :
    Read.ridx_main_v1 (ix3 b i d) k = ix3 b k d :=
  funext fun a => by match a with | ⟨0, _⟩ => rfl | ⟨1, _⟩ => rfl | ⟨2, _⟩ => rfl
theorem lidx_v7 (b : Fin 8) (i : Fin 4096) (d : Fin 3) (k : Fin 4096) :
    Read.lidx_main_v7 (ix3 b i d) k = ix3 b i k :=
  funext fun a => by match a with | ⟨0, _⟩ => rfl | ⟨1, _⟩ => rfl | ⟨2, _⟩ => rfl
theorem ridx_v7 (b : Fin 8) (i : Fin 4096) (d : Fin 3) (k : Fin 4096) :
    Read.ridx_main_v7 (ix3 b i d) k = ix3 b k d :=
  funext fun a => by match a with | ⟨0, _⟩ => rfl | ⟨1, _⟩ => rfl | ⟨2, _⟩ => rfl
/-- The index the degree's summand is read at, through the two broadcasts: row `k`, column `i` of batch `b`. -/
theorem didx_v0 (b : Fin 8) (i : Fin 4096) (d : Fin 3) (k : Fin 4096) :
    Read.idx_main_v0 (Read.idx_main_v2 (Read.idx_main_v3 (ix3 b i d))) k = ix3 b k i :=
  funext fun a => by match a with | ⟨0, _⟩ => rfl | ⟨1, _⟩ => rfl | ⟨2, _⟩ => rfl
theorem didx_v6 (b : Fin 8) (i : Fin 4096) (d : Fin 3) (k : Fin 4096) :
    Read.idx_main_v6 (Read.idx_main_v8 (Read.idx_main_v9 (ix3 b i d))) k = ix3 b k i :=
  funext fun a => by match a with | ⟨0, _⟩ => rfl | ⟨1, _⟩ => rfl | ⟨2, _⟩ => rfl

/-- The difference stage is the difference of the two Laplacians in quotient form. -/
theorem dref_eq (p1 p2 : FVec Ideal S8x4096x3 .f32) (A : FVec Ideal S8x4096x4096 .f32) :
    dref p1 p2 A = Cert.Laplacian.diffQ A p1 p2 := by
  funext j
  obtain ⟨b, i, d, rfl⟩ : ∃ b i d, j = ix3 b i d := ⟨j 0, j 1, j 2, eq_ix3 j⟩
  unfold dref
  rw [Read.val_main_v12_apply, Read.val_main_v11_apply, Read.val_main_v10_apply, Read.val_main_v9_apply,
    Read.val_main_v8_apply, Read.val_main_v7_apply, Read.val_main_v6_apply, Read.val_main_v5_apply,
    Read.val_main_v4_apply, Read.val_main_v3_apply, Read.val_main_v2_apply, Read.val_main_v1_apply,
    Read.val_main_v0_apply]
  simp only [Read.val_main_cst_apply, Read.val_main_cst_0_apply, Ideal.ofBits_def, Ideal.ofBits_zero_f32, zero_add,
    Ideal.subf_def, Ideal.hostDivf_def, lidx_v1, ridx_v1, lidx_v7, ridx_v7, didx_v0, didx_v6]
  rfl

/-- The program's result, as the run states it (one composed term of the three arguments), is the total sum of
    the squares of the difference stage, starting from the zero constant. -/
theorem result_eq (p1 p2 : FVec Ideal S8x4096x3 .f32) (A : FVec Ideal S8x4096x4096 .f32) :
    Host.reduceAdd (F := Ideal) (mulf (subf (subf p2 (Host.divf (F := Ideal) (Host.dotGeneral (F := Ideal) dot_S8x4096x4096_S8x4096x3_S8x4096x3_2_1_1_2_0_0 none A p2) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))) (subf p1 (Host.divf (F := Ideal) (Host.dotGeneral (F := Ideal) dot_S8x4096x4096_S8x4096x3_S8x4096x3_2_1_1_2_0_0 none A p1) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_)))))) (subf (subf p2 (Host.divf (F := Ideal) (Host.dotGeneral (F := Ideal) dot_S8x4096x4096_S8x4096x3_S8x4096x3_2_1_1_2_0_0 none A p2) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))) (subf p1 (Host.divf (F := Ideal) (Host.dotGeneral (F := Ideal) dot_S8x4096x4096_S8x4096x3_S8x4096x3_2_1_1_2_0_0 none A p1) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))))) (constant (F := Ideal) S_ .f32 0x00000000#32) reducesTo_S8x4096x3_S_d0_1_2 h_S_
      = Host.reduceAdd (F := Ideal) (mulf (dref p1 p2 A) (dref p1 p2 A)) (constant (F := Ideal) S_ .f32 0x00000000#32)
          reducesTo_S8x4096x3_S_d0_1_2 h_S_ := rfl

/-- The same result with the difference stage replaced by the difference of the two Laplacians. -/
theorem result_eq_diffQ (p1 p2 : FVec Ideal S8x4096x3 .f32) (A : FVec Ideal S8x4096x4096 .f32) :
    Host.reduceAdd (F := Ideal) (mulf (subf (subf p2 (Host.divf (F := Ideal) (Host.dotGeneral (F := Ideal) dot_S8x4096x4096_S8x4096x3_S8x4096x3_2_1_1_2_0_0 none A p2) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))) (subf p1 (Host.divf (F := Ideal) (Host.dotGeneral (F := Ideal) dot_S8x4096x4096_S8x4096x3_S8x4096x3_2_1_1_2_0_0 none A p1) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_)))))) (subf (subf p2 (Host.divf (F := Ideal) (Host.dotGeneral (F := Ideal) dot_S8x4096x4096_S8x4096x3_S8x4096x3_2_1_1_2_0_0 none A p2) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))) (subf p1 (Host.divf (F := Ideal) (Host.dotGeneral (F := Ideal) dot_S8x4096x4096_S8x4096x3_S8x4096x3_2_1_1_2_0_0 none A p1) (broadcastInDim S8x4096x3 ![0, 1, 2] bcast_S8x4096x1_S8x4096x3_0_1_2 (broadcastInDim S8x4096x1 ![0, 1] bcast_S8x4096_S8x4096x1_0_1 (Host.reduceAdd (F := Ideal) A (constant (F := Ideal) S_ .f32 0x00000000#32) reducesTo_S8x4096x4096_S8x4096_d1 h_S_))))))) (constant (F := Ideal) S_ .f32 0x00000000#32) reducesTo_S8x4096x3_S_d0_1_2 h_S_
      = Host.reduceAdd (F := Ideal)
          (mulf (F := Ideal) (s := S8x4096x3) (φ := .f32) (Cert.Laplacian.diffQ A p1 p2) (Cert.Laplacian.diffQ A p1 p2))
          (constant (F := Ideal) S_ .f32 0x00000000#32) reducesTo_S8x4096x3_S_d0_1_2 h_S_ := by
  rw [result_eq, dref_eq]

end Cert.ReferenceIdeal.RefValue

end
-- ==== Proof.PreDomain.lean ====
/-
  What the precondition says of the adjacency batch. The precondition is a conjunction, by `and` of
  one-bit words, whose last conjunct is "every column sum of `A` differs from zero": the sum of `A` over
  its row axis, compared by `≠` with the zero array, reduced by `and` over every index. Read over the
  extended reals: a conjunction that is 1 has every conjunct 1; a reduction by `and` that is 1 met a 1 at
  every index; the comparison `≠` is 1 exactly where its operands differ; and the sum over the row axis at
  `(b, k)` is `0 + ∑ᵢ A[b,i,k]`, the degree of node `k`. Hence every degree is nonzero.
-/
import proofs.«182072_j35141422416050_2_alg».proof.Pre_finite_inputs
import proofs.«182072_j35141422416050_2_alg».proof.Proof.Gen.Pre_finite_inputs
import proofs.«182072_j35141422416050_2_alg».proof.Proof.Spec
import Idealize.ShloMosaic.Lib.ReduceAll
import Idealize.ShloMosaic.PureOps.Ideal.Laws
import Idealize.ShloMosaic.Lib.ValueIdx

noncomputable section

open scoped BigOperators

namespace Cert.Laplacian.PreDomain

open Idealize.ShloMosaic Idealize.ShloMosaic.ValueIdx Cert.Pre_finite_inputs

variable [Cert.Pre_finite_inputs.Facts]
open Cert.Pre_finite_inputs.Facts

/-- The rank-zero shape has one index. -/
instance : Subsingleton S_.Idx := ⟨fun _ _ => funext fun d => d.elim0⟩

/-- Over the extended reals the comparison `≠` gives 1 only where its operands differ. -/
theorem ne_of_cmp_une {x y : EReal} (h : Ideal.cmp .une x y = 1#1) : x ≠ y := by
  intro hxy
  subst hxy
  simp [Ideal.cmp] at h

/-- The sum of `A` over its row axis, from the zero initial value, at `(b, k)`: zero plus the column sum. -/
theorem colsum_apply (A : FVec Ideal S8x4096x4096 .f32) (b : Fin 8) (k : Fin 4096) :
    Host.reduceAdd (F := Ideal) A (constant (F := Ideal) S_ .f32 0x00000000#32)
        reducesTo_S8x4096x4096_S8x4096_d1 h_S_ (ix2 b k)
      = 0 + ∑ i : Fin 4096, A (ix3 b i k) := by
  simp only [Host.reduceAdd, Ideal.hostReduceAdd_def]
  rw [Ideal.hostReduceAdd_single reducesTo_S8x4096x4096_S8x4096_d1 (by decide)]
  have hz : (constant (F := Ideal) S_ .f32 0x00000000#32) (Shape.Idx.first h_S_) = 0 :=
    Ideal.ofBits_zero_f32
  rw [hz]
  refine congrArg (0 + ·) (Finset.sum_congr rfl fun i _ => ?_)
  exact congrArg A (funext fun a => Fin.ext (by
    match a with
    | ⟨0, _⟩ => rfl
    | ⟨1, _⟩ => rfl
    | ⟨2, _⟩ => rfl))

/-- Under the precondition every node has a nonzero degree. -/
theorem deg_ne_zero (p1 p2 : FVec Ideal S8x4096x3 .f32) (A : FVec Ideal S8x4096x4096 .f32)
    (h : fn (F := Ideal) p1 p2 A = fun _ => 1#1) (b : Fin 8) (k : Fin 4096) :
    Cert.Laplacian.deg A b k ≠ 0 := by
  -- the conjunction is 1 at its one index, so its last conjunct is
  have h0 : fn (F := Ideal) p1 p2 A ix0 = 1#1 := congrFun h ix0
  have h1 : Host.reduce IntOp.andi
      (cmpf .une
        (Host.reduceAdd (F := Ideal) A (constant (F := Ideal) S_ .f32 0x00000000#32)
          reducesTo_S8x4096x4096_S8x4096_d1 h_S_)
        (broadcastInDim S8x4096 ![] bcast_S_S8x4096 (constant (F := Ideal) S_ .f32 0x00000000#32)))
      (constantI S_ 1 1#1) reducesTo_S8x4096_S_d0_1 h_S_ ix0 = 1#1 :=
    (IntOp.andi_eq_one.1 h0).2
  -- the reduction by `and` is 1, so the comparison is 1 at every index, in particular at `(b, k)`
  have h2 := Host.reduce_andi_all _ _ reducesTo_S8x4096_S_d0_1 h_S_ ix0 h1 (ix2 b k)
  have h3 : Ideal.cmp .une
      (Host.reduceAdd (F := Ideal) A (constant (F := Ideal) S_ .f32 0x00000000#32)
        reducesTo_S8x4096x4096_S8x4096_d1 h_S_ (ix2 b k))
      (Ideal.ofBits .f32 0x00000000#32) = 1#1 := h2
  -- the compared values are the column sum and zero
  rw [colsum_apply, Ideal.ofBits_zero_f32, zero_add] at h3
  exact ne_of_cmp_une h3

end Cert.Laplacian.PreDomain

end
-- ==== Proof.lean ====
/-
  The kernel streams the adjacency batch once and accumulates two sums out of it: the neighbour sums
  Σ_j A[b,i,j] · x[b,j,d] over four column tiles per row tile, and the degrees (column sums) Σ_i A[b,i,k] over the two
  row tiles of a batch; on the host it multiplies the neighbour sums by the reciprocal of the degrees. The
  reference takes the same two sums whole and divides. Over the extended reals the tiled sums are the whole sums
  (addition is commutative and associative there), and a product with 1/y is the quotient by y whenever y ≠ 0, so under
  the precondition — finite inputs and no zero degree — both programs end with the sum of squares of the same
  difference of graph Laplacians. The idealization pass rewrote nothing, so its claim is trivial.
-/
import proofs.«182072_j35141422416050_2_alg».proof.Defs
import proofs.«182072_j35141422416050_2_alg».proof.Proof.Gen.Kernel
import proofs.«182072_j35141422416050_2_alg».proof.Proof.Gen.Kernel.Skeleton
import proofs.«182072_j35141422416050_2_alg».proof.Proof.Gen.Kernel.Launch
import proofs.«182072_j35141422416050_2_alg».proof.Proof.Gen.Kernel.Points
import proofs.«182072_j35141422416050_2_alg».proof.Proof.Gen.Kernel.Frame
import proofs.«182072_j35141422416050_2_alg».proof.Proof.Gen.KernelIdeal
import proofs.«182072_j35141422416050_2_alg».proof.Proof.Gen.KernelIdeal.Skeleton
import proofs.«182072_j35141422416050_2_alg».proof.Proof.Gen.KernelIdeal.Launch
import proofs.«182072_j35141422416050_2_alg».proof.Proof.Gen.KernelIdeal.Points
import proofs.«182072_j35141422416050_2_alg».proof.Proof.Gen.KernelIdeal.Frame
import proofs.«182072_j35141422416050_2_alg».proof.Proof.Gen.ReferenceIdeal
import proofs.«182072_j35141422416050_2_alg».proof.Proof.Gen.ReferenceIdeal.Run
import proofs.«182072_j35141422416050_2_alg».proof.Proof.Gen.Pre_finite_inputs
import proofs.«182072_j35141422416050_2_alg».proof.Proof.KRun
import proofs.«182072_j35141422416050_2_alg».proof.Proof.RefRead
import proofs.«182072_j35141422416050_2_alg».proof.Proof.PreDomain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the sum of squares of the quotient-form Laplacian difference of arguments that agree;
    the precondition's last conjunct gives that no degree is zero, which is what turns the kernel's product with the
    reciprocal into the reference's quotient. -/
theorem algebraic : Cert.algebraic_KernelIdeal_ReferenceIdeal := by
  intro m ρ m' ρ' hpre hagree
  have hdeg : ∀ (c : Dev Cert.KernelIdeal.nD) (b : Fin 8) (k : Fin 4096),
      Cert.Laplacian.deg (m ((c.tc : Thread Cert.KernelIdeal.nD Cert.KernelIdeal.τ).loc Cert.KernelIdeal.main_arg2)) b k ≠ 0 :=
    fun c b k => Cert.Laplacian.PreDomain.deg_ne_zero _ _ _ (hpre c) b k
  refine ⟨fun c => Cert.KernelIdeal.Tail.tailSum (Cert.Laplacian.diffQ
      (m ((c.tc : Thread Cert.KernelIdeal.nD Cert.KernelIdeal.τ).loc Cert.KernelIdeal.main_arg2))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (congrArg Cert.KernelIdeal.Tail.tailSum (Cert.KernelIdeal.KRun.tailD_eq m c (hdeg c))), (h c).2⟩)
      (Cert.KernelIdeal.KRun.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.RefValue.result_eq_diffQ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
